-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x1 .f32) (main_arg1 : IVec S2x6400000 32) (main_arg2 : FVec F S1x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S200000x1 : Shape := ⟨2, ![200000, 1]⟩
abbrev S2x6400000 : Shape := ⟨2, ![2, 6400000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S1x1 : Shape := ⟨2, ![1, 1]⟩
abbrev S200000x16 : Shape := ⟨2, ![200000, 16]⟩
abbrev S2000x1 : Shape := ⟨2, ![2000, 1]⟩
abbrev S2000x16 : Shape := ⟨2, ![2000, 16]⟩
abbrev S6400000x16 : Shape := ⟨2, ![6400000, 16]⟩
abbrev S8000x16 : Shape := ⟨2, ![8000, 16]⟩
abbrev S8000x1 : Shape := ⟨2, ![8000, 1]⟩
abbrev S2000 : Shape := ⟨1, ![2000]⟩

abbrev nBuf : Space → Nat
  | .hbm => 79
  | .vmem => 38
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S200000, .f32⟩
  | .hbm, ⟨16, _⟩ => ⟨S6400000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S200000, .f32⟩
  | .hbm, ⟨22, _⟩ => ⟨S200000, .f32⟩
  | .hbm, ⟨23, _⟩ => ⟨S200000x1, .f32⟩
  | .hbm, ⟨24, _⟩ => ⟨S_, .i32⟩
  | .hbm, ⟨25, _⟩ => ⟨S6400000, .i32⟩
  | .hbm, ⟨26, _⟩ => ⟨S6400000, .i1⟩
  | .hbm, ⟨27, _⟩ => ⟨S_, .i32⟩
  | .hbm, ⟨28, _⟩ => ⟨S6400000, .i32⟩
  | .hbm, ⟨29, _⟩ => ⟨S6400000, .i32⟩
  | .hbm, ⟨30, _⟩ => ⟨S6400000, .i32⟩
  | .hbm, ⟨31, _⟩ => ⟨S6400000x1, .i32⟩
  | .hbm, ⟨32, _⟩ => ⟨S6400000, .f32⟩
  | .hbm, ⟨33, _⟩ => ⟨S_, .i32⟩
  | .hbm, ⟨34, _⟩ => ⟨S6400000, .i32⟩
  | .hbm, ⟨35, _⟩ => ⟨S6400000, .i1⟩
  | .hbm, ⟨36, _⟩ => ⟨S_, .i32⟩
  | .hbm, ⟨37, _⟩ => ⟨S6400000, .i32⟩
  | .hbm, ⟨38, _⟩ => ⟨S6400000, .i32⟩
  | .hbm, ⟨39, _⟩ => ⟨S6400000, .i32⟩
  | .hbm, ⟨40, _⟩ => ⟨S6400000x1, .i32⟩
  | .hbm, ⟨41, _⟩ => ⟨S6400000, .f32⟩
  | .hbm, ⟨42, _⟩ => ⟨S6400000, .f32⟩
  | .hbm, ⟨43, _⟩ => ⟨S6400000x1, .f32⟩
  | .hbm, ⟨44, _⟩ => ⟨S1x16, .f32⟩
  | .hbm, ⟨45, _⟩ => ⟨S1x16, .f32⟩
  | .hbm, ⟨46, _⟩ => ⟨S1x16, .f32⟩
  | .hbm, ⟨47, _⟩ => ⟨S1x1, .f32⟩
  | .hbm, ⟨48, _⟩ => ⟨S200000x16, .f32⟩
  | .hbm, ⟨49, _⟩ => ⟨S_, .i32⟩
  | .hbm, ⟨50, _⟩ => ⟨S6400000, .i32⟩
  | .hbm, ⟨51, _⟩ => ⟨S6400000, .i1⟩
  | .hbm, ⟨52, _⟩ => ⟨S_, .i32⟩
  | .hbm, ⟨53, _⟩ => ⟨S6400000, .i32⟩
  | .hbm, ⟨54, _⟩ => ⟨S6400000, .i32⟩
  | .hbm, ⟨55, _⟩ => ⟨S6400000, .i32⟩
  | .hbm, ⟨56, _⟩ => ⟨S6400000x1, .i32⟩
  | .hbm, ⟨57, _⟩ => ⟨S6400000x16, .f32⟩
  | .hbm, ⟨58, _⟩ => ⟨S6400000x16, .f32⟩
  | .hbm, ⟨59, _⟩ => ⟨S_, .f32⟩
  | .hbm, ⟨60, _⟩ => ⟨S200000x16, .f32⟩
  | .hbm, ⟨61, _⟩ => ⟨S6400000x1, .i32⟩
  | .hbm, ⟨62, _⟩ => ⟨S200000x16, .f32⟩
  | .hbm, ⟨63, _⟩ => ⟨S200000x16, .f32⟩
  | .hbm, ⟨64, _⟩ => ⟨S_, .i32⟩
  | .hbm, ⟨65, _⟩ => ⟨S6400000, .i32⟩
  | .hbm, ⟨66, _⟩ => ⟨S6400000, .i1⟩
  | .hbm, ⟨67, _⟩ => ⟨S_, .i32⟩
  | .hbm, ⟨68, _⟩ => ⟨S6400000, .i32⟩
  | .hbm, ⟨69, _⟩ => ⟨S6400000, .i32⟩
  | .hbm, ⟨70, _⟩ => ⟨S6400000, .i32⟩
  | .hbm, ⟨71, _⟩ => ⟨S6400000x1, .i32⟩
  | .hbm, ⟨72, _⟩ => ⟨S6400000x16, .f32⟩
  | .hbm, ⟨73, _⟩ => ⟨S6400000x16, .f32⟩
  | .hbm, ⟨74, _⟩ => ⟨S_, .f32⟩
  | .hbm, ⟨75, _⟩ => ⟨S200000x16, .f32⟩
  | .hbm, ⟨76, _⟩ => ⟨S6400000x1, .i32⟩
  | .hbm, ⟨77, _⟩ => ⟨S200000x16, .f32⟩
  | .hbm, ⟨78, _⟩ => ⟨S200000x1, .f32⟩
  | .local _ .vmem, ⟨0, _⟩ => ⟨S2000x1, .f32⟩
  | .local _ .vmem, ⟨1, _⟩ => ⟨S2000x1, .f32⟩
  | .local _ .vmem, ⟨2, _⟩ => ⟨S1x16, .f32⟩
  | .local _ .vmem, ⟨3, _⟩ => ⟨S2000x16, .f32⟩
  | .local _ .vmem, ⟨4, _⟩ => ⟨S2000x16, .f32⟩
  | .local _ .vmem, ⟨5, _⟩ => ⟨S8000x16, .f32⟩
  | .local _ .vmem, ⟨6, _⟩ => ⟨S8000x16, .f32⟩
  | .local _ .vmem, ⟨7, _⟩ => ⟨S8000x1, .f32⟩
  | .local _ .vmem, ⟨8, _⟩ => ⟨S8000x1, .f32⟩
  | .local _ .vmem, ⟨9, _⟩ => ⟨S8000x16, .f32⟩
  | .local _ .vmem, ⟨10, _⟩ => ⟨S8000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x1, .f32⟩
  | .local _ .vmem, ⟨16, _⟩ => ⟨S2000x1, .f32⟩
  | .local _ .vmem, ⟨17, _⟩ => ⟨S1x16, .f32⟩
  | .local _ .vmem, ⟨18, _⟩ => ⟨S16x16, .f32⟩
  | .local _ .vmem, ⟨19, _⟩ => ⟨S2000x16, .f32⟩
  | .local _ .vmem, ⟨20, _⟩ => ⟨S2000x16, .f32⟩
  | .local _ .vmem, ⟨21, _⟩ => ⟨S8000x16, .f32⟩
  | .local _ .vmem, ⟨22, _⟩ => ⟨S8000x16, .f32⟩
  | .local _ .vmem, ⟨23, _⟩ => ⟨S8000x1, .f32⟩
  | .local _ .vmem, ⟨24, _⟩ => ⟨S8000x1, .f32⟩
  | .local _ .vmem, ⟨25, _⟩ => ⟨S8000x16, .f32⟩
  | .local _ .vmem, ⟨26, _⟩ => ⟨S8000x16, .f32⟩
  | .local _ .vmem, ⟨27, _⟩ => ⟨S2000x16, .f32⟩
  | .local _ .vmem, ⟨28, _⟩ => ⟨S2000x16, .f32⟩
  | .local _ .vmem, ⟨29, _⟩ => ⟨S2000x16, .f32⟩
  | .local _ .vmem, ⟨30, _⟩ => ⟨S2000x16, .f32⟩
  | .local _ .vmem, ⟨31, _⟩ => ⟨S2000x1, .f32⟩
  | .local _ .vmem, ⟨32, _⟩ => ⟨S2000x1, .f32⟩
  | .local _ .vmem, ⟨33, _⟩ => ⟨S1x16, .f32⟩
  | .local _ .vmem, ⟨34, _⟩ => ⟨S1x16, .f32⟩
  | .local _ .vmem, ⟨35, _⟩ => ⟨S1x1, .f32⟩
  | .local _ .vmem, ⟨36, _⟩ => ⟨S2000x1, .f32⟩
  | .local _ .vmem, ⟨37, _⟩ => ⟨S2000x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![800], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![800], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S200000x1 : S200000.ShapeCasts S200000x1
  shapeCasts_S6400000_S6400000x1 : S6400000.ShapeCasts S6400000x1
  shapeCasts_S16_S1x16 : S16.ShapeCasts S1x16
  shapeCasts_S16x1_S1x16 : S16x1.ShapeCasts S1x16
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  bcast_S_S200000x16 : S_.BroadcastsInDim S200000x16 (![] : Fin 0 → Fin S200000x16.rank)
  shapeCasts_S2000x16_S2000x16 : S2000x16.ShapeCasts S2000x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  reduces_S2000x16_S2000 : S2000x16.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S2000x16_S16x16_S2000x16_1_0_0_1_n_n_wf : DotDims.WF S2000x16 S16x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S200000x1.size a
  hwx0_0 : ∀ i : grid0.Coords, EltTy.bits .f32 = 32 ∨ (Rect.block (s := S200000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S200000x16.size a
  hwx0_2 : ∀ i : grid0.Coords, EltTy.bits .f32 = 32 ∨ (Rect.block (s := S200000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S6400000x16.size a
  hwx1_0 : ∀ i : grid1.Coords, EltTy.bits .f32 = 32 ∨ (Rect.block (s := S6400000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S6400000x1.size a
  hwx1_1 : ∀ i : grid1.Coords, EltTy.bits .f32 = 32 ∨ (Rect.block (s := S6400000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x16.size a ≤ S6400000x16.size a
  hwx1_2 : ∀ i : grid1.Coords, EltTy.bits .f32 = 32 ∨ (Rect.block (s := S6400000x16) S8000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S200000x16.size a
  hwx2_0 : ∀ i : grid2.Coords, EltTy.bits .f32 = 32 ∨ (Rect.block (s := S200000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S200000x16.size a
  hwx2_1 : ∀ i : grid2.Coords, EltTy.bits .f32 = 32 ∨ (Rect.block (s := S200000x16) S2000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S200000x1.size a
  hwx2_2 : ∀ i : grid2.Coords, EltTy.bits .f32 = 32 ∨ (Rect.block (s := S200000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x16.size a ≤ S200000x16.size a
  hwx2_5 : ∀ i : grid2.Coords, EltTy.bits .f32 = 32 ∨ (Rect.block (s := S200000x16) S2000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S6400000x16.size a
  hwx3_0 : ∀ i : grid3.Coords, EltTy.bits .f32 = 32 ∨ (Rect.block (s := S6400000x16) S8000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S6400000x1.size a
  hwx3_1 : ∀ i : grid3.Coords, EltTy.bits .f32 = 32 ∨ (Rect.block (s := S6400000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x16.size a ≤ S6400000x16.size a
  hwx3_2 : ∀ i : grid3.Coords, EltTy.bits .f32 = 32 ∨ (Rect.block (s := S6400000x16) S8000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S200000x16.size a
  hwx4_0 : ∀ i : grid4.Coords, EltTy.bits .f32 = 32 ∨ (Rect.block (s := S200000x16) S2000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x16.size a ≤ S200000x16.size a
  hwx4_1 : ∀ i : grid4.Coords, EltTy.bits .f32 = 32 ∨ (Rect.block (s := S200000x16) S2000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S200000x1.size a
  hwx4_2 : ∀ i : grid4.Coords, EltTy.bits .f32 = 32 ∨ (Rect.block (s := S200000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x1.size a ≤ S200000x1.size a
  hwx4_6 : ∀ i : grid4.Coords, EltTy.bits .f32 = 32 ∨ (Rect.block (s := S200000x1) S2000x1.size (cc4_transform_6 i) (hinb4_6 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S8000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S2000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v31) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v32) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S2000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S200000x16 : Shape := ⟨2, ![200000, 16]⟩
abbrev S_ : Shape := ⟨0, ![]⟩
abbrev S200000 : Shape := ⟨1, ![200000]⟩
abbrev S6400000x1 : Shape := ⟨2, ![6400000, 1]⟩
abbrev S6400000x16 : Shape := ⟨2, ![6400000, 16]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S200000x1, .f32⟩
  | 1 => ⟨S2x6400000, .i32⟩
  | 2 => ⟨S1x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x6400000, .i32⟩
  | 9 => ⟨S6400000, .i32⟩
  | 10 => ⟨S1x6400000, .i32⟩
  | 11 => ⟨S6400000, .i32⟩
  | 12 => ⟨S200000x16, .f32⟩
  | 13 => ⟨S_, .f32⟩
  | 14 => ⟨S6400000, .f32⟩
  | 15 => ⟨S_, .f32⟩
  | 16 => ⟨S200000, .f32⟩
  | 17 => ⟨S6400000x1, .i32⟩
  | 18 => ⟨S200000, .f32⟩
  | 19 => ⟨S_, .f32⟩
  | 20 => ⟨S200000, .f32⟩
  | 21 => ⟨S200000, .f32⟩
  | 22 => ⟨S200000, .f32⟩
  | 23 => ⟨S_, .i32⟩
  | 24 => ⟨S6400000, .i32⟩
  | 25 => ⟨S6400000, .i1⟩
  | 26 => ⟨S_, .i32⟩
  | 27 => ⟨S6400000, .i32⟩
  | 28 => ⟨S6400000, .i32⟩
  | 29 => ⟨S6400000, .i32⟩
  | 30 => ⟨S6400000x1, .i32⟩
  | 31 => ⟨S6400000, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000, .f32⟩
  | 41 => ⟨S6400000, .f32⟩
  | 42 => ⟨S6400000x1, .f32⟩
  | 43 => ⟨S_, .i32⟩
  | 44 => ⟨S6400000, .i32⟩
  | 45 => ⟨S6400000, .i1⟩
  | 46 => ⟨S_, .i32⟩
  | 47 => ⟨S6400000, .i32⟩
  | 48 => ⟨S6400000, .i32⟩
  | 49 => ⟨S6400000, .i32⟩
  | 50 => ⟨S6400000x1, .i32⟩
  | 51 => ⟨S6400000x16, .f32⟩
  | 52 => ⟨S6400000x16, .f32⟩
  | 53 => ⟨S6400000x16, .f32⟩
  | 54 => ⟨S_, .f32⟩
  | 55 => ⟨S200000x16, .f32⟩
  | 56 => ⟨S6400000x1, .i32⟩
  | 57 => ⟨S200000x16, .f32⟩
  | 58 => ⟨S200000, .f32⟩
  | 59 => ⟨S200000x1, .f32⟩
  | 60 => ⟨S200000x16, .f32⟩
  | 61 => ⟨S200000x16, .f32⟩
  | 62 => ⟨S200000x16, .f32⟩
  | 63 => ⟨S1x16, .f32⟩
  | 64 => ⟨S200000x16, .f32⟩
  | 65 => ⟨S200000x16, .f32⟩
  | 66 => ⟨S_, .f32⟩
  | 67 => ⟨S200000x16, .f32⟩
  | 68 => ⟨S200000x16, .f32⟩
  | 69 => ⟨S200000x16, .f32⟩
  | 70 => ⟨S_, .f32⟩
  | 71 => ⟨S6400000, .f32⟩
  | 72 => ⟨S_, .f32⟩
  | 73 => ⟨S200000, .f32⟩
  | 74 => ⟨S6400000x1, .i32⟩
  | 75 => ⟨S200000, .f32⟩
  | 76 => ⟨S_, .f32⟩
  | 77 => ⟨S200000, .f32⟩
  | 78 => ⟨S200000, .f32⟩
  | 79 => ⟨S200000, .f32⟩
  | 80 => ⟨S_, .i32⟩
  | 81 => ⟨S6400000, .i32⟩
  | 82 => ⟨S6400000, .i1⟩
  | 83 => ⟨S_, .i32⟩
  | 84 => ⟨S6400000, .i32⟩
  | 85 => ⟨S6400000, .i32⟩
  | 86 => ⟨S6400000, .i32⟩
  | 87 => ⟨S6400000x1, .i32⟩
  | 88 => ⟨S6400000, .f32⟩
  | 89 => ⟨S_, .i32⟩
  | 90 => ⟨S6400000, .i32⟩
  | 91 => ⟨S6400000, .i1⟩
  | 92 => ⟨S_, .i32⟩
  | 93 => ⟨S6400000, .i32⟩
  | 94 => ⟨S6400000, .i32⟩
  | 95 => ⟨S6400000, .i32⟩
  | 96 => ⟨S6400000x1, .i32⟩
  | 97 => ⟨S6400000, .f32⟩
  | 98 => ⟨S6400000, .f32⟩
  | 99 => ⟨S6400000x1, .f32⟩
  | 100 => ⟨S_, .i32⟩
  | 101 => ⟨S6400000, .i32⟩
  | 102 => ⟨S6400000, .i1⟩
  | 103 => ⟨S_, .i32⟩
  | 104 => ⟨S6400000, .i32⟩
  | 105 => ⟨S6400000, .i32⟩
  | 106 => ⟨S6400000, .i32⟩
  | 107 => ⟨S6400000x1, .i32⟩
  | 108 => ⟨S6400000x16, .f32⟩
  | 109 => ⟨S6400000x16, .f32⟩
  | 110 => ⟨S6400000x16, .f32⟩
  | 111 => ⟨S_, .f32⟩
  | 112 => ⟨S200000x16, .f32⟩
  | 113 => ⟨S6400000x1, .i32⟩
  | 114 => ⟨S200000x16, .f32⟩
  | 115 => ⟨S200000, .f32⟩
  | 116 => ⟨S200000x1, .f32⟩
  | 117 => ⟨S200000x16, .f32⟩
  | 118 => ⟨S200000x16, .f32⟩
  | 119 => ⟨S200000x16, .f32⟩
  | 120 => ⟨S1x16, .f32⟩
  | 121 => ⟨S200000x16, .f32⟩
  | 122 => ⟨S200000x16, .f32⟩
  | 123 => ⟨S_, .f32⟩
  | 124 => ⟨S200000x16, .f32⟩
  | 125 => ⟨S200000x16, .f32⟩
  | 126 => ⟨S200000x1, .f32⟩
  | 127 => ⟨S1x1, .f32⟩
  | _ => ⟨S200000x1, .f32⟩

abbrev hbmTy0_1 (i : Nat) : BufTy := match i % 128 with
  | 0 => ⟨S200000x1, .f32⟩
  | 1 => ⟨S200000x1, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x1_S1x16_S200000x16_1_0_0_1_n_n_wf : DotDims.WF S200000x1 S1x16 S200000x16 [1] [0] [0] [1] [] []
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x16_S200000x16_1_0_0_1_n_n_wf : DotDims.WF S200000x16 S16x16 S200000x16 [1] [0] [0] [1] [] []
  dot_S200000x16_S16x1_S200000x1_1_0_0_1_n_n_wf : DotDims.WF S200000x16 S16x1 S200000x1 [1] [0] [0] [1] [] []

variable [Facts₀]

def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

class Facts : Prop extends Facts₀ where

variable [Facts]
-- ==== Proof.KRun.lean ====
/-
  The idealized kernel's run with its RESULT kept: every weakly fair execution of @main terminates, nothing faulting,
  with the result array at what the last region's write-backs leave (the last boundary's contents, `W10`, read at the
  result's buffer) and the argument arrays as launched. @main is five regions among stretches of host operations; the
  thread state at the end holds every unscoped buffer at the last boundary's contents, and the result's buffer is read
  there beside the arguments'.
-/
import proofs.«115449_j36979668418675_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array read at the last boundary's contents. -/
theorem run_result : θ_run defs (onTc (τ := τ) (main (F := F))) ⟨m, fun _ => 0, ρ⟩ (fun r => ∀ c : Dev nD,
      r.2.mem ((c.tc : Thread nD τ).loc main_v57) = W10 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v57 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Hand

end
-- ==== Proof.LibPlainDot.lean ====
/-
  General lemmas at the ideal instance (floats are extended reals) for a plain two-dimensional contraction
  `[M, K] × [K, N] → [M, N]` and for the row broadcasts that go with it, each read at an index.

  * `PlainDot.sum_contr`: the sum over the one-axis contraction index of a plain dot is the sum over `k : Fin K` of
    the left operand at `(row, k)` times the right operand at `(k, column)`.
  * `PlainDot.matmul_zero_apply` / `PlainDot.dotGeneral_apply`: the matrix unit's product into a zero accumulator and
    the host's `dot_general` are both that sum.
  * the row forms of a broadcast: a `[1, N]` array broadcast over `M` rows reads its one row; a vector of `N` entries
    re-laid as one row `[1, N]` (by a reshape or by a broadcast along a new leading axis) reads the vector.
  * `PlainDot.affineAt`: `(∑ₖ A[r,k]·Wl[k,c]) + (∑ₖ H[r,k]·Wr[k,c]) + b[c]` clamped below by `z` (a two-operand affine map
    followed by `max · z`), and `PlainDot.linAt`: `(∑ₖ P[r,k]·W[k,c]) + b[c]`; the host's spelling and the kernel
    body's spelling of each are these functions index by index; and the congruence that reads a block's entry as
    an array's entry.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace PlainDot

variable {M K N : Nat}

/-- The sum over a plain dot's contraction index, re-indexed by the one contracted coordinate. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congrArg₂ (· * ·) (congrArg l el) (congrArg r er)

/-- The matrix unit's product into a zero accumulator, at an index. -/
theorem matmul_zero_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant (F := Ideal) ⟨2, ![M, N]⟩ .f32 0x00000000#32) j
      = ∑ k : Fin K, l (ix2 (j 0) k) * r (ix2 k (j 1)) := by
  show FloatOps.matmul (DotDims.plain M K N) prec l r (constant (F := Ideal) ⟨2, ![M, N]⟩ .f32 0x00000000#32) j = _
  rw [Ideal.matmul_constant_zero_apply]
  exact sum_contr l r j

/-- The host's `dot_general`, at an index. -/
theorem dotGeneral_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  show FloatOps.dotGeneral (DotDims.plain M K N) prec .single l r j = _
  rw [Ideal.dotGeneral_apply]
  exact sum_contr l r j

/-! ## Rows -/

section Rows
variable {α : Type}

/-- A one-row array broadcast over `M` rows (`vector.broadcast`) reads its row. -/
theorem broadcastTo_row (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = x (ix2 0 (j 1)) := by
  refine broadcastTo_apply x h j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A one-row array broadcast over `M` rows (`broadcast_in_dim`, both axes kept) reads its row. -/
theorem broadcastInDim_row (x : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h x j = x (ix2 0 (j 1)) := by
  refine broadcastInDim_apply ![0, 1] h x j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A vector laid out as one row by a broadcast along a new leading axis. -/
theorem broadcastInDim_vec_row (b : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h b j = b (ix1 (j 1)) := by
  refine broadcastInDim_apply ![1] h b j (ix1 (j 1)) fun a => ?_
  match a with
  | ⟨0, _⟩ =>
    show (j 1).val = if N = 1 then 0 else (j 1).val
    split_ifs with hN
    · have := (j 1).isLt; simp only [Matrix.cons_val_one, Matrix.cons_val_zero] at this; omega
    · rfl

/-- A vector laid out as one row by a reshape. -/
theorem shapeCast_vec_row (b : (⟨1, ![N]⟩ : Shape).Idx → α) (h : (⟨1, ![N]⟩ : Shape).ShapeCasts ⟨2, ![1, N]⟩)
    (j : (⟨2, ![1, N]⟩ : Shape).Idx) : shapeCast ⟨2, ![1, N]⟩ b h j = b (ix1 (j 1)) := by
  refine (shapeCast_addUnit_apply ![N] b h j).trans (congrArg b (funext fun a => ?_))
  match a with
  | ⟨0, _⟩ => rfl

/-- The two layouts of a vector as one row are one array. -/
theorem shapeCast_eq_broadcastInDim_row (b : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ b h = broadcastInDim ⟨2, ![1, N]⟩ ![1] h' b :=
  funext fun j => (shapeCast_vec_row b h j).trans (broadcastInDim_vec_row b h' j).symm

/-- A scalar broadcast to any shape reads the scalar. -/
theorem broadcastInDim_scalar {t : Shape} (x : (⟨0, ![]⟩ : Shape).Idx → α)
    (h : (⟨0, ![]⟩ : Shape).BroadcastsInDim t ![]) (j : t.Idx) : broadcastInDim t ![] h x j = x ix0 :=
  broadcastInDim_apply ![] h x j ix0 fun a => a.elim0

end Rows

/-! ## The two affine maps, index by index -/

/-- `max ((∑ₖ A[r,k]·Wl[k,c]) + (∑ₖ H[r,k]·Wr[k,c]) + B[0,c]) z` at `j = (r, c)`. -/
def affineAt (A H : (⟨2, ![M, K]⟩ : Shape).Idx → EReal) (Wl Wr : (⟨2, ![K, N]⟩ : Shape).Idx → EReal)
    (B : (⟨2, ![1, N]⟩ : Shape).Idx → EReal) (z : EReal) (j : (⟨2, ![M, N]⟩ : Shape).Idx) : EReal :=
  max ((∑ k : Fin K, A (ix2 (j 0) k) * Wl (ix2 k (j 1))) + (∑ k : Fin K, H (ix2 (j 0) k) * Wr (ix2 k (j 1))) + B (ix2 0 (j 1))) z

/-- `(∑ₖ P[r,k]·W[k,c]) + B[0,c]` at `j = (r, c)`. -/
def linAt (P : (⟨2, ![M, K]⟩ : Shape).Idx → EReal) (W : (⟨2, ![K, N]⟩ : Shape).Idx → EReal)
    (B : (⟨2, ![1, N]⟩ : Shape).Idx → EReal) (j : (⟨2, ![M, N]⟩ : Shape).Idx) : EReal :=
  (∑ k : Fin K, P (ix2 (j 0) k) * W (ix2 k (j 1))) + B (ix2 0 (j 1))

/-- An entry of `affineAt` over blocks is the entry of `affineAt` over arrays when the block entries it reads are the
    array entries at the matching row and column. -/
theorem affineAt_congr {P : Nat} (a h : (⟨2, ![P, K]⟩ : Shape).Idx → EReal) (wl wr : (⟨2, ![K, N]⟩ : Shape).Idx → EReal)
    (b : (⟨2, ![1, N]⟩ : Shape).Idx → EReal) (A H : (⟨2, ![M, K]⟩ : Shape).Idx → EReal)
    (Wl Wr : (⟨2, ![K, N]⟩ : Shape).Idx → EReal) (B : (⟨2, ![1, N]⟩ : Shape).Idx → EReal) (z : EReal)
    (y : (⟨2, ![P, N]⟩ : Shape).Idx) (i : (⟨2, ![M, N]⟩ : Shape).Idx)
    (ha : ∀ k : Fin K, a (ix2 (y 0) k) = A (ix2 (i 0) k)) (hh : ∀ k : Fin K, h (ix2 (y 0) k) = H (ix2 (i 0) k))
    (hwl : ∀ k : Fin K, wl (ix2 k (y 1)) = Wl (ix2 k (i 1))) (hwr : ∀ k : Fin K, wr (ix2 k (y 1)) = Wr (ix2 k (i 1)))
    (hb : b (ix2 0 (y 1)) = B (ix2 0 (i 1))) :
    affineAt a h wl wr b z y = affineAt A H Wl Wr B z i := by
  have e1 : (∑ k : Fin K, a (ix2 (y 0) k) * wl (ix2 k (y 1))) = ∑ k : Fin K, A (ix2 (i 0) k) * Wl (ix2 k (i 1)) :=
    Finset.sum_congr rfl fun k _ => by rw [ha k, hwl k]
  have e2 : (∑ k : Fin K, h (ix2 (y 0) k) * wr (ix2 k (y 1))) = ∑ k : Fin K, H (ix2 (i 0) k) * Wr (ix2 k (i 1)) :=
    Finset.sum_congr rfl fun k _ => by rw [hh k, hwr k]
  unfold affineAt
  rw [e1, e2, hb]

theorem linAt_congr {P : Nat} (p : (⟨2, ![P, K]⟩ : Shape).Idx → EReal) (w : (⟨2, ![K, N]⟩ : Shape).Idx → EReal)
    (b : (⟨2, ![1, N]⟩ : Shape).Idx → EReal) (Pa : (⟨2, ![M, K]⟩ : Shape).Idx → EReal)
    (W : (⟨2, ![K, N]⟩ : Shape).Idx → EReal) (B : (⟨2, ![1, N]⟩ : Shape).Idx → EReal)
    (y : (⟨2, ![P, N]⟩ : Shape).Idx) (i : (⟨2, ![M, N]⟩ : Shape).Idx)
    (hp : ∀ k : Fin K, p (ix2 (y 0) k) = Pa (ix2 (i 0) k)) (hw : ∀ k : Fin K, w (ix2 k (y 1)) = W (ix2 k (i 1)))
    (hb : b (ix2 0 (y 1)) = B (ix2 0 (i 1))) :
    linAt p w b y = linAt Pa W B i := by
  have e1 : (∑ k : Fin K, p (ix2 (y 0) k) * w (ix2 k (y 1))) = ∑ k : Fin K, Pa (ix2 (i 0) k) * W (ix2 k (i 1)) :=
    Finset.sum_congr rfl fun k _ => by rw [hp k, hw k]
  unfold linAt
  rw [e1, hb]

/-- The host's spelling of the clamped affine map: two `dot_general`s added, a one-row bias broadcast over the rows
    added, `maximum` with a broadcast zero scalar. -/
theorem host_affine_apply (A H : FVec Ideal ⟨2, ![M, K]⟩ .f32) (Wl Wr : FVec Ideal ⟨2, ![K, N]⟩ .f32)
    (B : FVec Ideal ⟨2, ![1, N]⟩ .f32)
    (hb : (⟨2, ![1, N]⟩ : Shape).BroadcastsInDim ⟨2, ![M, N]⟩ ![0, 1])
    (hz : (⟨0, ![]⟩ : Shape).BroadcastsInDim ⟨2, ![M, N]⟩ ![]) (j : (⟨2, ![M, N]⟩ : Shape).Idx) :
    maximumf (addf (addf (Host.dotGeneral (DotDims.plain M K N) none A Wl) (Host.dotGeneral (DotDims.plain M K N) none H Wr))
        (broadcastInDim ⟨2, ![M, N]⟩ ![0, 1] hb B))
      (broadcastInDim ⟨2, ![M, N]⟩ ![] hz (constant (F := Ideal) ⟨0, ![]⟩ .f32 0x00000000#32)) j
      = affineAt A H Wl Wr B (Ideal.ofBits .f32 0x00000000#32) j := by
  rw [maximumf_apply, addf_apply, addf_apply, dotGeneral_apply, dotGeneral_apply, broadcastInDim_row, broadcastInDim_scalar]
  rfl

/-- The host's spelling of the plain affine map. -/
theorem host_lin_apply (P : FVec Ideal ⟨2, ![M, K]⟩ .f32) (W : FVec Ideal ⟨2, ![K, N]⟩ .f32)
    (B : FVec Ideal ⟨2, ![1, N]⟩ .f32)
    (hb : (⟨2, ![1, N]⟩ : Shape).BroadcastsInDim ⟨2, ![M, N]⟩ ![0, 1]) (j : (⟨2, ![M, N]⟩ : Shape).Idx) :
    addf (Host.dotGeneral (DotDims.plain M K N) none P W) (broadcastInDim ⟨2, ![M, N]⟩ ![0, 1] hb B) j
      = linAt P W B j := by
  rw [addf_apply, dotGeneral_apply, broadcastInDim_row]
  rfl

/-- The kernel body's spelling of the clamped affine map: operands rounded to bf16 (the identity on extended reals),
    two matrix-unit products into zero accumulators added, the one-row bias broadcast added, `maximum` with zero. -/
theorem body_affine_apply (x0 x1 : FVec Ideal ⟨2, ![M, K]⟩ .f32) (x2 x3 : FVec Ideal ⟨2, ![K, N]⟩ .f32)
    (x4 : FVec Ideal ⟨2, ![1, N]⟩ .f32)
    (h0 : (⟨2, ![M, K]⟩ : Shape).ShapeCasts ⟨2, ![M, K]⟩) (h4 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    maximumf (addf (addf
          (matmul (DotDims.plain M K N) none (truncf .bf16 (shapeCast ⟨2, ![M, K]⟩ x0 h0) hlt) (truncf .bf16 x2 hlt)
            (constant (F := Ideal) ⟨2, ![M, N]⟩ .f32 0x00000000#32))
          (matmul (DotDims.plain M K N) none (truncf .bf16 (shapeCast ⟨2, ![M, K]⟩ x1 h0) hlt) (truncf .bf16 x3 hlt)
            (constant (F := Ideal) ⟨2, ![M, N]⟩ .f32 0x00000000#32)))
        (broadcastTo ⟨2, ![M, N]⟩ (shapeCast ⟨2, ![1, N]⟩ x4 h4) hb))
      (broadcast ⟨2, ![M, N]⟩ (Scalar.ofBits (F := Ideal) .f32 0x00000000#32)) j
      = affineAt x0 x1 x2 x3 x4 (Ideal.ofBits .f32 0x00000000#32) j := by
  rw [maximumf_apply, addf_apply, addf_apply, matmul_zero_apply, matmul_zero_apply, broadcastTo_row, shapeCast_self,
    shapeCast_self, shapeCast_self]
  rfl

/-- The kernel body's spelling of the plain affine map. -/
theorem body_lin_apply (x0 : FVec Ideal ⟨2, ![M, K]⟩ .f32) (x1 : FVec Ideal ⟨2, ![K, N]⟩ .f32)
    (x2 : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    addf (matmul (DotDims.plain M K N) none (truncf .bf16 (shapeCast ⟨2, ![M, K]⟩ x0 h0) hlt) (truncf .bf16 x1 hlt)
          (constant (F := Ideal) ⟨2, ![M, N]⟩ .f32 0x00000000#32))
        (broadcastTo ⟨2, ![M, N]⟩ (shapeCast ⟨2, ![1, N]⟩ x2 h2) hb) j
      = linAt x0 x1 x2 j := by
  rw [addf_apply, matmul_zero_apply, broadcastTo_row, shapeCast_self, shapeCast_self]
  rfl

end PlainDot

end
-- ==== Proof.LibCols.lean ====
/-
  General lemmas: the column layouts of a vector, each read at an index.

  * a `[M, 1]` column broadcast over `N` lanes (`vector.broadcast` or `broadcast_in_dim`, both axes kept) reads the
    column's entry in the same row;
  * a vector of `M` entries laid out as a column `[M, 1]` (by a reshape, or by a broadcast along a new trailing axis)
    reads the vector's entry; the two layouts are one array;
  * a column `[K, 1]` re-laid as a row `[1, K]` by a reshape reads the column's entry at the row's lane.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace ColLayout

variable {α : Type} {M N K : Nat}

/-- A column broadcast over `N` lanes (`vector.broadcast`) reads its row's entry. -/
theorem broadcastTo_col (x : (⟨2, ![M, 1]⟩ : Shape).Idx → α) (h : (⟨2, ![M, 1]⟩ : Shape).Broadcasts ⟨2, ![M, N]⟩)
    (j : (⟨2, ![M, N]⟩ : Shape).Idx) : broadcastTo ⟨2, ![M, N]⟩ x h j = x (ix2 (j 0) 0) := by
  refine broadcastTo_apply x h j (ix2 (j 0) 0) fun a => ?_
  match a with
  | ⟨0, _⟩ =>
    show (j 0).val = if M = 1 then 0 else (j 0).val
    split_ifs with hM
    · have := (j 0).isLt; simp only [Matrix.cons_val_zero] at this; omega
    · rfl
  | ⟨1, _⟩ => rfl

/-- A column broadcast over `N` lanes (`broadcast_in_dim`, both axes kept) reads its row's entry. -/
theorem broadcastInDim_col (x : (⟨2, ![M, 1]⟩ : Shape).Idx → α)
    (h : (⟨2, ![M, 1]⟩ : Shape).BroadcastsInDim ⟨2, ![M, N]⟩ ![0, 1]) (j : (⟨2, ![M, N]⟩ : Shape).Idx) :
    broadcastInDim ⟨2, ![M, N]⟩ ![0, 1] h x j = x (ix2 (j 0) 0) := by
  refine broadcastInDim_apply ![0, 1] h x j (ix2 (j 0) 0) fun a => ?_
  match a with
  | ⟨0, _⟩ =>
    show (j 0).val = if M = 1 then 0 else (j 0).val
    split_ifs with hM
    · have := (j 0).isLt; simp only [Matrix.cons_val_zero] at this; omega
    · rfl
  | ⟨1, _⟩ => rfl

/-- A vector laid out as a column by a broadcast along a new trailing axis. -/
theorem broadcastInDim_vec_col (b : (⟨1, ![M]⟩ : Shape).Idx → α)
    (h : (⟨1, ![M]⟩ : Shape).BroadcastsInDim ⟨2, ![M, 1]⟩ ![0]) (j : (⟨2, ![M, 1]⟩ : Shape).Idx) :
    broadcastInDim ⟨2, ![M, 1]⟩ ![0] h b j = b (ix1 (j 0)) := by
  refine broadcastInDim_apply ![0] h b j (ix1 (j 0)) fun a => ?_
  match a with
  | ⟨0, _⟩ =>
    show (j 0).val = if M = 1 then 0 else (j 0).val
    split_ifs with hM
    · have := (j 0).isLt; simp only [Matrix.cons_val_zero] at this; omega
    · rfl

/-- A vector laid out as a column by a reshape. -/
theorem shapeCast_vec_col (b : (⟨1, ![M]⟩ : Shape).Idx → α) (h : (⟨1, ![M]⟩ : Shape).ShapeCasts ⟨2, ![M, 1]⟩)
    (j : (⟨2, ![M, 1]⟩ : Shape).Idx) : shapeCast ⟨2, ![M, 1]⟩ b h j = b (ix1 (j 0)) := by
  refine shapeCast_apply b h j (ix1 (j 0)) ?_
  rw [Shape.rowMajor_val_two, Shape.rowMajor_val_one]
  have h1 : (j 1).val = 0 := by
    have := (j 1).isLt; simp only [Matrix.cons_val_one, Matrix.cons_val_zero] at this; omega
  show (j 0).val = (j 0).val * 1 + (j 1).val
  omega

/-- The two layouts of a vector as a column are one array. -/
theorem shapeCast_eq_broadcastInDim_col (b : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ b h = broadcastInDim ⟨2, ![M, 1]⟩ ![0] h' b :=
  funext fun j => (shapeCast_vec_col b h j).trans (broadcastInDim_vec_col b h' j).symm

/-- A column re-laid as a row by a reshape reads the column's entry at the row's lane. -/
theorem shapeCast_col_row (b : (⟨2, ![K, 1]⟩ : Shape).Idx → α) (h : (⟨2, ![K, 1]⟩ : Shape).ShapeCasts ⟨2, ![1, K]⟩)
    (j : (⟨2, ![1, K]⟩ : Shape).Idx) : shapeCast ⟨2, ![1, K]⟩ b h j = b (ix2 (j 1) 0) := by
  refine shapeCast_apply b h j (ix2 (j 1) 0) ?_
  rw [Shape.rowMajor_val_two, Shape.rowMajor_val_two]
  have h0 : (j 0).val = 0 := by
    have := (j 0).isLt; simp only [Matrix.cons_val_zero] at this; omega
  show (j 1).val * 1 + 0 = (j 0).val * K + (j 1).val
  rw [h0]; omega

end ColLayout

end
-- ==== Proof.LayerSpec.lean ====
/-
  The layers of a two-layer graph convolution, index by index, on extended reals, and the host's spelling of each.

  With `z` the extended real the zero word encodes:
  * `outerAt x w (r, c) = x[r, 0] · w[0, c]` — a column times a row (a contraction over an axis of extent one);
  * `scaleAt g n (e, c) = g[e, c] · n[e, 0]` — every lane of a row scaled by the row's factor;
  * `actAt agg h d b (r, k) = max (agg[r, k] + h[r, k] · d[r, 0] + b[0, k]) z` — the aggregated neighbours plus the
    node's own term scaled by its factor plus the bias, clamped below;
  * `dotActAt … W (r, c) = ∑ₖ actAt … (r, k) · W[k, c]` and `headAt … wl bl (r, 0) = (∑ₖ actAt … (r, k) · wl[0, k]) + bl[0, 0]`.
  The host's operations (`dot_general`, `broadcast_in_dim`, `multiply`, `add`, `maximum`) compose to these functions.
-/
import proofs.«115449_j36979668418675_2_alg».proof.Proof.LibPlainDot
import proofs.«115449_j36979668418675_2_alg».proof.Proof.LibCols
import Idealize.ShloMosaic.PureOps.Ideal.Laws
import Idealize.ShloMosaic.Lib.ValueIdx
import Idealize.ShloMosaic.Lib.Pipeline.Value

noncomputable section

open Idealize.ShloMosaic Idealize.ShloMosaic.ValueIdx

namespace LayerSpec

variable {M K N : Nat}

/-- The extended real the zero word encodes. -/
abbrev z32 : EReal := Ideal.ofBits .f32 0x00000000#32

/-- A column times a row. -/
def outerAt (x : (⟨2, ![M, 1]⟩ : Shape).Idx → EReal) (w : (⟨2, ![1, N]⟩ : Shape).Idx → EReal) :
    (⟨2, ![M, N]⟩ : Shape).Idx → EReal := fun i => x (ix2 (i 0) 0) * w (ix2 0 (i 1))

/-- Every lane of a row scaled by the row's factor. -/
def scaleAt (g : (⟨2, ![M, N]⟩ : Shape).Idx → EReal) (n : (⟨2, ![M, 1]⟩ : Shape).Idx → EReal) :
    (⟨2, ![M, N]⟩ : Shape).Idx → EReal := fun i => g i * n (ix2 (i 0) 0)

/-- Aggregated neighbours plus the node's own scaled term plus the bias, clamped below. -/
def actAt (agg h : (⟨2, ![M, K]⟩ : Shape).Idx → EReal) (d : (⟨2, ![M, 1]⟩ : Shape).Idx → EReal)
    (b : (⟨2, ![1, K]⟩ : Shape).Idx → EReal) : (⟨2, ![M, K]⟩ : Shape).Idx → EReal :=
  fun i => max (agg i + h i * d (ix2 (i 0) 0) + b (ix2 0 (i 1))) z32

/-- The activation contracted with a weight matrix. -/
def dotActAt (agg h : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal) :
    (⟨2, ![M, N]⟩ : Shape).Idx → EReal :=
  fun i => ∑ k : Fin K, actAt agg h d b (ix2 (i 0) k) * W (ix2 k (i 1))

/-- The activation contracted with a weight row, plus a bias. -/
def headAt (agg h : (⟨2, ![M, K]⟩ : Shape).Idx → EReal) (d : (⟨2, ![M, 1]⟩ : Shape).Idx → EReal)
    (b : (⟨2, ![1, K]⟩ : Shape).Idx → EReal) (wl : (⟨2, ![1, K]⟩ : Shape).Idx → EReal)
    (bl : (⟨2, ![1, 1]⟩ : Shape).Idx → EReal) : (⟨2, ![M, 1]⟩ : Shape).Idx → EReal :=
  fun i => (∑ k : Fin K, actAt agg h d b (ix2 (i 0) k) * wl (ix2 0 k)) + bl (ix2 0 0)

/-! ## The host's spellings -/

/-- A `dot_general` over a contracted axis of extent one is the outer product. -/
theorem host_outer (x : FVec Ideal ⟨2, ![M, 1]⟩ .f32) (w : FVec Ideal ⟨2, ![1, N]⟩ .f32) :
    Host.dotGeneral (DotDims.plain M 1 N) none x w = outerAt x w := by
  funext j
  rw [PlainDot.dotGeneral_apply, Fin.sum_univ_one]
  rfl

/-- A product with a column broadcast over the lanes. -/
theorem host_scale (g : FVec Ideal ⟨2, ![M, N]⟩ .f32) (n : FVec Ideal ⟨2, ![M, 1]⟩ .f32)
    (hn : (⟨2, ![M, 1]⟩ : Shape).BroadcastsInDim ⟨2, ![M, N]⟩ ![0, 1]) :
    mulf g (broadcastInDim ⟨2, ![M, N]⟩ ![0, 1] hn n) = scaleAt g n := by
  funext j
  rw [mulf_apply, ColLayout.broadcastInDim_col]
  rfl

/-- The host's activation: `maximum (agg + h · bcast d + bcast b) (bcast 0)`. -/
theorem host_act (agg h : FVec Ideal ⟨2, ![M, K]⟩ .f32) (d : FVec Ideal ⟨2, ![M, 1]⟩ .f32) (b : FVec Ideal ⟨2, ![1, K]⟩ .f32)
    (hd : (⟨2, ![M, 1]⟩ : Shape).BroadcastsInDim ⟨2, ![M, K]⟩ ![0, 1])
    (hb : (⟨2, ![1, K]⟩ : Shape).BroadcastsInDim ⟨2, ![M, K]⟩ ![0, 1])
    (hz : (⟨0, ![]⟩ : Shape).BroadcastsInDim ⟨2, ![M, K]⟩ ![]) :
    maximumf (addf (addf agg (mulf h (broadcastInDim ⟨2, ![M, K]⟩ ![0, 1] hd d))) (broadcastInDim ⟨2, ![M, K]⟩ ![0, 1] hb b))
        (broadcastInDim ⟨2, ![M, K]⟩ ![] hz (constant (F := Ideal) ⟨0, ![]⟩ .f32 0x00000000#32))
      = actAt agg h d b := by
  funext j
  rw [maximumf_apply, addf_apply, addf_apply, mulf_apply, ColLayout.broadcastInDim_col, PlainDot.broadcastInDim_row,
    PlainDot.broadcastInDim_scalar]
  rfl

/-- The activation through a `dot_general`. -/
theorem host_dotAct (agg h : FVec Ideal ⟨2, ![M, K]⟩ .f32) (d : FVec Ideal ⟨2, ![M, 1]⟩ .f32) (b : FVec Ideal ⟨2, ![1, K]⟩ .f32)
    (W : FVec Ideal ⟨2, ![K, N]⟩ .f32) :
    Host.dotGeneral (φ₁ := .f32) (DotDims.plain M K N) none (actAt agg h d b) W = dotActAt agg h d b W := by
  funext j
  rw [PlainDot.dotGeneral_apply]
  rfl

/-- The head: the activation through a `dot_general` with a weight column, plus a broadcast bias; the column read as
    the row a reshape makes of it. -/
theorem host_head (agg h : FVec Ideal ⟨2, ![M, K]⟩ .f32) (d : FVec Ideal ⟨2, ![M, 1]⟩ .f32) (b : FVec Ideal ⟨2, ![1, K]⟩ .f32)
    (wc : FVec Ideal ⟨2, ![K, 1]⟩ .f32) (bl : FVec Ideal ⟨2, ![1, 1]⟩ .f32)
    (hc : (⟨2, ![K, 1]⟩ : Shape).ShapeCasts ⟨2, ![1, K]⟩)
    (hb : (⟨2, ![1, 1]⟩ : Shape).BroadcastsInDim ⟨2, ![M, 1]⟩ ![0, 1]) :
    addf (Host.dotGeneral (φ₁ := .f32) (DotDims.plain M K 1) none (actAt agg h d b) wc)
        (broadcastInDim ⟨2, ![M, 1]⟩ ![0, 1] hb bl)
      = headAt agg h d b (shapeCast ⟨2, ![1, K]⟩ wc hc) bl := by
  funext j
  rw [addf_apply, PlainDot.dotGeneral_apply, PlainDot.broadcastInDim_row]
  unfold headAt
  have h1 : j 1 = (0 : Fin 1) := Fin.ext (by
    have := (j 1).isLt; simp only [Matrix.cons_val_one, Matrix.cons_val_zero] at this; show (j 1).val = 0; omega)
  refine congrArg₂ (· + ·) (Finset.sum_congr rfl fun k _ => ?_) (by rw [h1])
  rw [ColLayout.shapeCast_col_row, h1]
  rfl

end LayerSpec

end
-- ==== Proof.Reg0.lean ====
/-
  Region 0: the first linear map. The input is a column `[200000, 1]` and the weight a row `[1, 16]`; the body
  broadcasts both to `[2000, 16]` and multiplies, so block `t` of the output holds `x[r, 0] · w[0, c]` for the rows
  `2000 t ≤ r < 2000 (t + 1)`. The hundred blocks tile the rows, so the output array ends as the outer product
  `(r, c) ↦ x[r, 0] · w[0, c]` of the arrays the region finds.
-/
import proofs.«115449_j36979668418675_2_alg».proof.Proof.Gen.KernelIdeal.Frame
import proofs.«115449_j36979668418675_2_alg».proof.Proof.LibPlainDot
import proofs.«115449_j36979668418675_2_alg».proof.Proof.LibCols
import proofs.«115449_j36979668418675_2_alg».proof.Proof.LayerSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen LayerSpec

theorem hz0 : (![0, 0] : Fin 2 → Nat) = fun _ => 0 := funext fun a => by fin_cases a <;> rfl

/-- The body's product at an entry of the block. -/
theorem pay0_apply (x0 : Vec Ideal S2000x1 .f32) (x1 : Vec Ideal S1x16 .f32) (j : S2000x16.Idx) :
    k0_pay1 (F := Ideal) x0 x1 j = outerAt x0 x1 j := by
  unfold k0_pay1
  rw [mulf_apply, ColLayout.broadcastTo_col, PlainDot.broadcastTo_row, shapeCast_self, shapeCast_self]
  rfl

variable (V : (c : Dev nD) → (b : Ref sig .tc) → Buf (Elt Ideal) ((c : Thread nD τ).loc b))

/-- The index maps over the grid: a window over rows moves one block per point, a window over a whole small array stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block `t` of window 0 is rows `2000 t …` of its array. -/
theorem iblk0_0_apply (c : Dev nD) (t : Fin cfg0.N) (y : S2000x1.Idx) (i : S200000x1.Idx)
    (h0 : (i 0).val = 2000 * t.val + (y 0).val) (h1 : (i 1).val = (y 1).val) :
    (iblk0 V c 0 t : FVec Ideal S2000x1 .f32) y = (V c main_arg0 : S200000x1.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 1 + 1 * (y 1).val = (i 1).val; rw [e1, h1]; omega

/-- Every block of window 1 is its whole array. -/
theorem iblk0_1_apply (c : Dev nD) (t : Fin cfg0.N) (y : S1x16.Idx) :
    (iblk0 V c 1 t : FVec Ideal S1x16 .f32) y = (V c main_arg2 : S1x16.Idx → EReal) y := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 1 + 1 * (y 0).val = (y 0).val; rw [e0]; omega
  | ⟨1, _⟩ => show win0_1.index t 1 * 16 + 1 * (y 1).val = (y 1).val; rw [e1]; omega

/-- An entry of the output's block `t` sits in row `2000 t + ` its row, same lane. -/
theorem oemb0 (t : Fin cfg0.N) (j : S2000x16.Idx) :
    ((((cfg0.win 2).blk t).view.emb j) 0).val = 2000 * t.val + (j 0).val
      ∧ ((((cfg0.win 2).blk t).view.emb j) 1).val = (j 1).val := by
  obtain ⟨-, -, -, -, e0, e1⟩ := idx0 t
  constructor
  · show win0_2.index t 0 * 2000 + 1 * (j 0).val = _; rw [e0]; omega
  · show win0_2.index t 1 * 16 + 1 * (j 1).val = _; rw [e1]; omega

/-- What point `t` writes back is block `t` of the layer's function of the arrays the region finds. -/
theorem flushed0 (c : Dev nD) (t : Fin cfg0.N) :
    (dat0 V c).flushed 2 t = ((cfg0.win 2).blk t).view.read (Elt Ideal) (outerAt (V c main_arg0) (V c main_arg2)) := by
  show (cfg0.win 2).cut (grid0.coords t) ((dat0 V c).after 2 t) = _
  rw [after0_2]
  unfold out0_2
  rw [View.canon_unit_zero hz0]
  simp only [View.ld_unit_zero (S := S2000x1) hz0, View.ld_unit_zero (S := S1x16) hz0]
  funext j
  obtain ⟨o0, o1⟩ := oemb0 t j
  show k0_pay1 (F := Ideal) (iblk0 V c 0 t) (iblk0 V c 1 t) j = outerAt (V c main_arg0) (V c main_arg2) (((cfg0.win 2).blk t).view.emb j)
  refine (pay0_apply _ _ j).trans ?_
  unfold outerAt
  refine congrArg₂ (· * ·) ?_ ?_
  · exact iblk0_0_apply V c t _ _ (by show (_ : Nat) = _; exact o0) rfl
  · refine (iblk0_1_apply V c t _).trans (congrArg _ ?_)
    funext a
    apply Fin.ext
    match a with
    | ⟨0, _⟩ => rfl
    | ⟨1, _⟩ => exact o1.symm

/-- The blocks tile the output's rows. -/
theorem cover0 (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 100 := N_0
  have hq : (i 0).val / 2000 < cfg0.N := by rw [hN]; omega
  obtain ⟨t, ht⟩ : ∃ t : Fin cfg0.N, t.val = (i 0).val / 2000 := ⟨⟨_, hq⟩, rfl⟩
  obtain ⟨-, -, -, -, e0, e1⟩ := idx0 t
  refine ⟨t, flush0_2 t, ?_⟩
  show i ∈ ((View.whole main_v33).slice (win0_2.rect t)).set
  rw [View.set_slice_whole, Rect.mem_set_unit]
  intro a
  match a with
  | ⟨0, _⟩ =>
    show win0_2.index t 0 * 2000 ≤ (i 0).val ∧ (i 0).val < win0_2.index t 0 * 2000 + 2000
    rw [e0, ht]; omega
  | ⟨1, _⟩ =>
    show win0_2.index t 1 * 16 ≤ (i 1).val ∧ (i 1).val < win0_2.index t 1 * 16 + 16
    rw [e1]; omega

/-- The output array after the region. -/
theorem arr0 (c : Dev nD) : (dat0 V c).arrAt 2 cfg0.N = outerAt (V c main_arg0) (V c main_arg2) :=
  (dat0 V c).arrAt_eq_of_cover 2 (outerAt (V c main_arg0) (V c main_arg2)) (fun t _ => flushed0 V c t) cover0

end Cert.KernelIdeal.Hand

end
-- ==== Proof.Reg1.lean ====
/-
  Region 1: the per-edge scaling. Block `t` holds rows `8000 t ≤ e < 8000 (t + 1)` of the gathered features
  `[6400000, 16]` and of the per-edge factor, a column `[6400000, 1]`; the body broadcasts the column over the sixteen
  lanes and multiplies. The eight hundred blocks tile the rows, so the output array ends as
  `(e, c) ↦ g[e, c] · n[e, 0]` of the arrays the region finds.
-/
import proofs.«115449_j36979668418675_2_alg».proof.Proof.Gen.KernelIdeal.Frame
import proofs.«115449_j36979668418675_2_alg».proof.Proof.LibPlainDot
import proofs.«115449_j36979668418675_2_alg».proof.Proof.LibCols
import proofs.«115449_j36979668418675_2_alg».proof.Proof.LayerSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen LayerSpec

theorem hz1 : (![0, 0] : Fin 2 → Nat) = fun _ => 0 := funext fun a => by fin_cases a <;> rfl

/-- The body's product at an entry of the block. -/
theorem pay1_apply (v0 : Vec Ideal S8000x1 .f32) (v4 : Vec Ideal S8000x16 .f32) (j : S8000x16.Idx) :
    k1_pay1 (F := Ideal) v0 v4 j = scaleAt v4 v0 j := by
  unfold k1_pay1
  rw [mulf_apply, ColLayout.broadcastTo_col]
  simp only [shapeCast_self]
  rfl

variable (V : (c : Dev nD) → (b : Ref sig .tc) → Buf (Elt Ideal) ((c : Thread nD τ).loc b))

/-- The index maps over the grid: a window over rows moves one block per point, a window over a whole small array stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Block `t` of window 0 is rows `8000 t …` of its array. -/
theorem iblk1_0_apply (c : Dev nD) (t : Fin cfg1.N) (y : S8000x16.Idx) (i : S6400000x16.Idx)
    (h0 : (i 0).val = 8000 * t.val + (y 0).val) (h1 : (i 1).val = (y 1).val) :
    (iblk1 V c 0 t : FVec Ideal S8000x16 .f32) y = (V c main_v40 : S6400000x16.Idx → EReal) i := by
  obtain ⟨e0, e1, -⟩ := idx1 t
  unfold iblk1
  rw [View.read_apply]
  show V c main_v40 _ = V c main_v40 _
  congr 1
  funext a
  apply Fin.ext
  match a with
  | ⟨0, _⟩ => show win1_0.index t 0 * 8000 + 1 * (y 0).val = (i 0).val; rw [e0, h0]; omega
  | ⟨1, _⟩ => show win1_0.index t 1 * 16 + 1 * (y 1).val = (i 1).val; rw [e1, h1]; omega

/-- Block `t` of window 1 is rows `8000 t …` of its array. -/
theorem iblk1_1_apply (c : Dev nD) (t : Fin cfg1.N) (y : S8000x1.Idx) (i : S6400000x1.Idx)
    (h0 : (i 0).val = 8000 * t.val + (y 0).val) (h1 : (i 1).val = (y 1).val) :
    (iblk1 V c 1 t : FVec Ideal S8000x1 .f32) y = (V c main_v28 : S6400000x1.Idx → EReal) i := by
  obtain ⟨-, -, e0, e1, -⟩ := idx1 t
  unfold iblk1
  rw [View.read_apply]
  show V c main_v28 _ = V c main_v28 _
  congr 1
  funext a
  apply Fin.ext
  match a with
  | ⟨0, _⟩ => show win1_1.index t 0 * 8000 + 1 * (y 0).val = (i 0).val; rw [e0, h0]; omega
  | ⟨1, _⟩ => show win1_1.index t 1 * 1 + 1 * (y 1).val = (i 1).val; rw [e1, h1]; omega

/-- An entry of the output's block `t` sits in row `8000 t + ` its row, same lane. -/
theorem oemb1 (t : Fin cfg1.N) (j : S8000x16.Idx) :
    ((((cfg1.win 2).blk t).view.emb j) 0).val = 8000 * t.val + (j 0).val
      ∧ ((((cfg1.win 2).blk t).view.emb j) 1).val = (j 1).val := by
  obtain ⟨-, -, -, -, e0, e1⟩ := idx1 t
  constructor
  · show win1_2.index t 0 * 8000 + 1 * (j 0).val = _; rw [e0]; omega
  · show win1_2.index t 1 * 16 + 1 * (j 1).val = _; rw [e1]; omega

/-- What point `t` writes back is block `t` of the layer's function of the arrays the region finds. -/
theorem flushed1 (c : Dev nD) (t : Fin cfg1.N) :
    (dat1 V c).flushed 2 t = ((cfg1.win 2).blk t).view.read (Elt Ideal) (scaleAt (V c main_v40) (V c main_v28)) := by
  show (cfg1.win 2).cut (grid1.coords t) ((dat1 V c).after 2 t) = _
  rw [after1_2]
  unfold out1_2
  rw [View.canon_unit_zero hz1]
  simp only [View.ld_unit_zero (S := S8000x16) hz1, View.ld_unit_zero (S := S8000x1) hz1]
  funext j
  obtain ⟨o0, o1⟩ := oemb1 t j
  show k1_pay1 (F := Ideal) (iblk1 V c 1 t) (iblk1 V c 0 t) j = scaleAt (V c main_v40) (V c main_v28) (((cfg1.win 2).blk t).view.emb j)
  refine (pay1_apply _ _ j).trans ?_
  unfold scaleAt
  refine congrArg₂ (· * ·) ?_ ?_
  · exact iblk1_0_apply V c t _ _ o0 o1
  · exact iblk1_1_apply V c t _ _ (by show (_ : Nat) = _; exact o0) rfl

/-- The blocks tile the output's rows. -/
theorem cover1 (i : S6400000x16.Idx) : ∃ t : Fin cfg1.N, (cfg1.win 2).flush t = true ∧ i ∈ ((cfg1.win 2).blk t).view.set := by
  have hi0 : (i 0).val < 6400000 := (i 0).isLt
  have hi1 : (i 1).val < 16 := (i 1).isLt
  have hN : cfg1.N = 800 := N_1
  have hq : (i 0).val / 8000 < cfg1.N := by rw [hN]; omega
  obtain ⟨t, ht⟩ : ∃ t : Fin cfg1.N, t.val = (i 0).val / 8000 := ⟨⟨_, hq⟩, rfl⟩
  obtain ⟨-, -, -, -, e0, e1⟩ := idx1 t
  refine ⟨t, flush1_2 t, ?_⟩
  show i ∈ ((View.whole main_v41).slice (win1_2.rect t)).set
  rw [View.set_slice_whole, Rect.mem_set_unit]
  intro a
  match a with
  | ⟨0, _⟩ =>
    show win1_2.index t 0 * 8000 ≤ (i 0).val ∧ (i 0).val < win1_2.index t 0 * 8000 + 8000
    rw [e0, ht]; omega
  | ⟨1, _⟩ =>
    show win1_2.index t 1 * 16 ≤ (i 1).val ∧ (i 1).val < win1_2.index t 1 * 16 + 16
    rw [e1]; omega

/-- The output array after the region. -/
theorem arr1 (c : Dev nD) : (dat1 V c).arrAt 2 cfg1.N = scaleAt (V c main_v40) (V c main_v28) :=
  (dat1 V c).arrAt_eq_of_cover 2 (scaleAt (V c main_v40) (V c main_v28)) (fun t _ => flushed1 V c t) cover1

end Cert.KernelIdeal.Hand

end
-- ==== Proof.Reg2.lean ====
/-
  Region 2: the first layer's activation and the second linear map. Block `t` holds rows `2000 t ≤ r < 2000 (t + 1)`
  of the aggregated neighbours, of the node features and of the per-node factor (a column); the bias row and the
  `[16, 16]` weight are whole at every point. The body forms `max (agg + h · d + b) 0`, rounds it and the weight to
  bf16 (the identity on extended reals) and multiplies them on the matrix unit into a zero accumulator: at an entry,
  the sum over `k` of the activation at `(r, k)` times the weight at `(k, c)`. The hundred blocks tile the rows.
-/
import proofs.«115449_j36979668418675_2_alg».proof.Proof.Gen.KernelIdeal.Frame
import proofs.«115449_j36979668418675_2_alg».proof.Proof.LibPlainDot
import proofs.«115449_j36979668418675_2_alg».proof.Proof.LibCols
import proofs.«115449_j36979668418675_2_alg».proof.Proof.LayerSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen LayerSpec

theorem hz2 : (![0, 0] : Fin 2 → Nat) = fun _ => 0 := funext fun a => by fin_cases a <;> rfl

/-- The body at an entry of the block: the clamped activation through the matrix unit. -/
theorem pay2_apply (v0 : Vec Ideal S2000x1 .f32) (v4 : Vec Ideal S1x16 .f32) (v8 v10 : Vec Ideal S2000x16 .f32)
    (v18 : Vec Ideal S16x16 .f32) (j : S2000x16.Idx) :
    k2_pay1 (F := Ideal) v0 v4 v8 v10 v18 j = dotActAt v8 v10 v0 v4 v18 j := by
  unfold k2_pay1
  refine (PlainDot.matmul_zero_apply (M := 2000) (K := 16) (N := 16) none _ _ j).trans ?_
  unfold dotActAt
  refine Finset.sum_congr rfl fun k _ => congrArg₂ (· * ·) ?_ rfl
  rw [truncf_apply, maximumf_apply, addf_apply, addf_apply, mulf_apply, ColLayout.broadcastTo_col, PlainDot.broadcastTo_row]
  simp only [shapeCast_self]
  rfl

variable (V : (c : Dev nD) → (b : Ref sig .tc) → Buf (Elt Ideal) ((c : Thread nD τ).loc b))

/-- The index maps over the grid: a window over rows moves one block per point, a window over a whole small array stays. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block `t` of window 0 is rows `2000 t …` of its array. -/
theorem iblk2_0_apply (c : Dev nD) (t : Fin cfg2.N) (y : S2000x16.Idx) (i : S200000x16.Idx)
    (h0 : (i 0).val = 2000 * t.val + (y 0).val) (h1 : (i 1).val = (y 1).val) :
    (iblk2 V c 0 t : FVec Ideal S2000x16 .f32) y = (V c main_v44 : S200000x16.Idx → EReal) i := by
  obtain ⟨e0, e1, -⟩ := idx2 t
  unfold iblk2
  rw [View.read_apply]
  show V c main_v44 _ = V c main_v44 _
  congr 1
  funext a
  apply Fin.ext
  match a with
  | ⟨0, _⟩ => show win2_0.index t 0 * 2000 + 1 * (y 0).val = (i 0).val; rw [e0, h0]; omega
  | ⟨1, _⟩ => show win2_0.index t 1 * 16 + 1 * (y 1).val = (i 1).val; rw [e1, h1]; omega

/-- Block `t` of window 1 is rows `2000 t …` of its array. -/
theorem iblk2_1_apply (c : Dev nD) (t : Fin cfg2.N) (y : S2000x16.Idx) (i : S200000x16.Idx)
    (h0 : (i 0).val = 2000 * t.val + (y 0).val) (h1 : (i 1).val = (y 1).val) :
    (iblk2 V c 1 t : FVec Ideal S2000x16 .f32) y = (V c main_v33 : S200000x16.Idx → EReal) i := by
  obtain ⟨-, -, e0, e1, -⟩ := idx2 t
  unfold iblk2
  rw [View.read_apply]
  show V c main_v33 _ = V c main_v33 _
  congr 1
  funext a
  apply Fin.ext
  match a with
  | ⟨0, _⟩ => show win2_1.index t 0 * 2000 + 1 * (y 0).val = (i 0).val; rw [e0, h0]; omega
  | ⟨1, _⟩ => show win2_1.index t 1 * 16 + 1 * (y 1).val = (i 1).val; rw [e1, h1]; omega

/-- Block `t` of window 2 is rows `2000 t …` of its array. -/
theorem iblk2_2_apply (c : Dev nD) (t : Fin cfg2.N) (y : S2000x1.Idx) (i : S200000x1.Idx)
    (h0 : (i 0).val = 2000 * t.val + (y 0).val) (h1 : (i 1).val = (y 1).val) :
    (iblk2 V c 2 t : FVec Ideal S2000x1 .f32) y = (V c main_v12 : S200000x1.Idx → EReal) i := by
  obtain ⟨-, -, -, -, e0, e1, -⟩ := idx2 t
  unfold iblk2
  rw [View.read_apply]
  show V c main_v12 _ = V c main_v12 _
  congr 1
  funext a
  apply Fin.ext
  match a with
  | ⟨0, _⟩ => show win2_2.index t 0 * 2000 + 1 * (y 0).val = (i 0).val; rw [e0, h0]; omega
  | ⟨1, _⟩ => show win2_2.index t 1 * 1 + 1 * (y 1).val = (i 1).val; rw [e1, h1]; omega

/-- Every block of window 3 is its whole array. -/
theorem iblk2_3_apply (c : Dev nD) (t : Fin cfg2.N) (y : S1x16.Idx) :
    (iblk2 V c 3 t : FVec Ideal S1x16 .f32) y = (V c main_v29 : S1x16.Idx → EReal) y := by
  obtain ⟨-, -, -, -, -, -, e0, e1, -⟩ := idx2 t
  unfold iblk2
  rw [View.read_apply]
  show V c main_v29 _ = V c main_v29 _
  congr 1
  funext a
  apply Fin.ext
  match a with
  | ⟨0, _⟩ => show win2_3.index t 0 * 1 + 1 * (y 0).val = (y 0).val; rw [e0]; omega
  | ⟨1, _⟩ => show win2_3.index t 1 * 16 + 1 * (y 1).val = (y 1).val; rw [e1]; omega

/-- Every block of window 4 is its whole array. -/
theorem iblk2_4_apply (c : Dev nD) (t : Fin cfg2.N) (y : S16x16.Idx) :
    (iblk2 V c 4 t : FVec Ideal S16x16 .f32) y = (V c main_arg4 : S16x16.Idx → EReal) y := by
  obtain ⟨-, -, -, -, -, -, -, -, e0, e1, -⟩ := idx2 t
  unfold iblk2
  rw [View.read_apply]
  show V c main_arg4 _ = V c main_arg4 _
  congr 1
  funext a
  apply Fin.ext
  match a with
  | ⟨0, _⟩ => show win2_4.index t 0 * 16 + 1 * (y 0).val = (y 0).val; rw [e0]; omega
  | ⟨1, _⟩ => show win2_4.index t 1 * 16 + 1 * (y 1).val = (y 1).val; rw [e1]; omega

/-- An entry of the output's block `t` sits in row `2000 t + ` its row, same lane. -/
theorem oemb2 (t : Fin cfg2.N) (j : S2000x16.Idx) :
    ((((cfg2.win 5).blk t).view.emb j) 0).val = 2000 * t.val + (j 0).val
      ∧ ((((cfg2.win 5).blk t).view.emb j) 1).val = (j 1).val := by
  obtain ⟨-, -, -, -, -, -, -, -, -, -, e0, e1⟩ := idx2 t
  constructor
  · show win2_5.index t 0 * 2000 + 1 * (j 0).val = _; rw [e0]; omega
  · show win2_5.index t 1 * 16 + 1 * (j 1).val = _; rw [e1]; omega

/-- What point `t` writes back is block `t` of the layer's function of the arrays the region finds. -/
theorem flushed2 (c : Dev nD) (t : Fin cfg2.N) :
    (dat2 V c).flushed 5 t = ((cfg2.win 5).blk t).view.read (Elt Ideal) (dotActAt (V c main_v44) (V c main_v33) (V c main_v12) (V c main_v29) (V c main_arg4)) := by
  show (cfg2.win 5).cut (grid2.coords t) ((dat2 V c).after 5 t) = _
  rw [after2_5]
  unfold out2_5
  rw [View.canon_unit_zero hz2]
  simp only [View.ld_unit_zero (S := S2000x16) hz2, View.ld_unit_zero (S := S2000x1) hz2, View.ld_unit_zero (S := S1x16) hz2, View.ld_unit_zero (S := S16x16) hz2]
  funext j
  obtain ⟨o0, o1⟩ := oemb2 t j
  show k2_pay1 (F := Ideal) (iblk2 V c 2 t) (iblk2 V c 3 t) (iblk2 V c 0 t) (iblk2 V c 1 t) (iblk2 V c 4 t) j
      = dotActAt (V c main_v44) (V c main_v33) (V c main_v12) (V c main_v29) (V c main_arg4) (((cfg2.win 5).blk t).view.emb j)
  refine (pay2_apply _ _ _ _ _ j).trans ?_
  unfold dotActAt
  refine Finset.sum_congr rfl fun k _ => congrArg₂ (· * ·) ?_ ?_
  ·
    unfold actAt
    refine congrArg₂ max (congrArg₂ (· + ·) (congrArg₂ (· + ·) ?_ (congrArg₂ (· * ·) ?_ ?_)) ?_) rfl
    · exact iblk2_0_apply V c t _ _ (by show (_ : Nat) = _; exact o0) rfl
    · exact iblk2_1_apply V c t _ _ (by show (_ : Nat) = _; exact o0) rfl
    · exact iblk2_2_apply V c t _ _ (by show (_ : Nat) = _; exact o0) rfl
    · exact iblk2_3_apply V c t _
  · refine (iblk2_4_apply V c t _).trans (congrArg _ ?_)
    funext a
    apply Fin.ext
    match a with
    | ⟨0, _⟩ => rfl
    | ⟨1, _⟩ => exact o1.symm

/-- The blocks tile the output's rows. -/
theorem cover2 (i : S200000x16.Idx) : ∃ t : Fin cfg2.N, (cfg2.win 5).flush t = true ∧ i ∈ ((cfg2.win 5).blk t).view.set := by
  have hi0 : (i 0).val < 200000 := (i 0).isLt
  have hi1 : (i 1).val < 16 := (i 1).isLt
  have hN : cfg2.N = 100 := N_2
  have hq : (i 0).val / 2000 < cfg2.N := by rw [hN]; omega
  obtain ⟨t, ht⟩ : ∃ t : Fin cfg2.N, t.val = (i 0).val / 2000 := ⟨⟨_, hq⟩, rfl⟩
  obtain ⟨-, -, -, -, -, -, -, -, -, -, e0, e1⟩ := idx2 t
  refine ⟨t, flush2_5 t, ?_⟩
  show i ∈ ((View.whole main_v45).slice (win2_5.rect t)).set
  rw [View.set_slice_whole, Rect.mem_set_unit]
  intro a
  match a with
  | ⟨0, _⟩ =>
    show win2_5.index t 0 * 2000 ≤ (i 0).val ∧ (i 0).val < win2_5.index t 0 * 2000 + 2000
    rw [e0, ht]; omega
  | ⟨1, _⟩ =>
    show win2_5.index t 1 * 16 ≤ (i 1).val ∧ (i 1).val < win2_5.index t 1 * 16 + 16
    rw [e1]; omega

/-- The output array after the region. -/
theorem arr2 (c : Dev nD) : (dat2 V c).arrAt 5 cfg2.N = dotActAt (V c main_v44) (V c main_v33) (V c main_v12) (V c main_v29) (V c main_arg4) :=
  (dat2 V c).arrAt_eq_of_cover 5 (dotActAt (V c main_v44) (V c main_v33) (V c main_v12) (V c main_v29) (V c main_arg4)) (fun t _ => flushed2 V c t) cover2

end Cert.KernelIdeal.Hand

end
-- ==== Proof.Reg3.lean ====
/-
  Region 3: the per-edge scaling. Block `t` holds rows `8000 t ≤ e < 8000 (t + 1)` of the gathered features
  `[6400000, 16]` and of the per-edge factor, a column `[6400000, 1]`; the body broadcasts the column over the sixteen
  lanes and multiplies. The eight hundred blocks tile the rows, so the output array ends as
  `(e, c) ↦ g[e, c] · n[e, 0]` of the arrays the region finds.
-/
import proofs.«115449_j36979668418675_2_alg».proof.Proof.Gen.KernelIdeal.Frame
import proofs.«115449_j36979668418675_2_alg».proof.Proof.LibPlainDot
import proofs.«115449_j36979668418675_2_alg».proof.Proof.LibCols
import proofs.«115449_j36979668418675_2_alg».proof.Proof.LayerSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen LayerSpec

theorem hz3 : (![0, 0] : Fin 2 → Nat) = fun _ => 0 := funext fun a => by fin_cases a <;> rfl

/-- The body's product at an entry of the block. -/
theorem pay3_apply (v0 : Vec Ideal S8000x1 .f32) (v4 : Vec Ideal S8000x16 .f32) (j : S8000x16.Idx) :
    k3_pay1 (F := Ideal) v0 v4 j = scaleAt v4 v0 j := by
  unfold k3_pay1
  rw [mulf_apply, ColLayout.broadcastTo_col]
  simp only [shapeCast_self]
  rfl

variable (V : (c : Dev nD) → (b : Ref sig .tc) → Buf (Elt Ideal) ((c : Thread nD τ).loc b))

/-- The index maps over the grid: a window over rows moves one block per point, a window over a whole small array stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Block `t` of window 0 is rows `8000 t …` of its array. -/
theorem iblk3_0_apply (c : Dev nD) (t : Fin cfg3.N) (y : S8000x16.Idx) (i : S6400000x16.Idx)
    (h0 : (i 0).val = 8000 * t.val + (y 0).val) (h1 : (i 1).val = (y 1).val) :
    (iblk3 V c 0 t : FVec Ideal S8000x16 .f32) y = (V c main_v52 : S6400000x16.Idx → EReal) i := by
  obtain ⟨e0, e1, -⟩ := idx3 t
  unfold iblk3
  rw [View.read_apply]
  show V c main_v52 _ = V c main_v52 _
  congr 1
  funext a
  apply Fin.ext
  match a with
  | ⟨0, _⟩ => show win3_0.index t 0 * 8000 + 1 * (y 0).val = (i 0).val; rw [e0, h0]; omega
  | ⟨1, _⟩ => show win3_0.index t 1 * 16 + 1 * (y 1).val = (i 1).val; rw [e1, h1]; omega

/-- Block `t` of window 1 is rows `8000 t …` of its array. -/
theorem iblk3_1_apply (c : Dev nD) (t : Fin cfg3.N) (y : S8000x1.Idx) (i : S6400000x1.Idx)
    (h0 : (i 0).val = 8000 * t.val + (y 0).val) (h1 : (i 1).val = (y 1).val) :
    (iblk3 V c 1 t : FVec Ideal S8000x1 .f32) y = (V c main_v28 : S6400000x1.Idx → EReal) i := by
  obtain ⟨-, -, e0, e1, -⟩ := idx3 t
  unfold iblk3
  rw [View.read_apply]
  show V c main_v28 _ = V c main_v28 _
  congr 1
  funext a
  apply Fin.ext
  match a with
  | ⟨0, _⟩ => show win3_1.index t 0 * 8000 + 1 * (y 0).val = (i 0).val; rw [e0, h0]; omega
  | ⟨1, _⟩ => show win3_1.index t 1 * 1 + 1 * (y 1).val = (i 1).val; rw [e1, h1]; omega

/-- An entry of the output's block `t` sits in row `8000 t + ` its row, same lane. -/
theorem oemb3 (t : Fin cfg3.N) (j : S8000x16.Idx) :
    ((((cfg3.win 2).blk t).view.emb j) 0).val = 8000 * t.val + (j 0).val
      ∧ ((((cfg3.win 2).blk t).view.emb j) 1).val = (j 1).val := by
  obtain ⟨-, -, -, -, e0, e1⟩ := idx3 t
  constructor
  · show win3_2.index t 0 * 8000 + 1 * (j 0).val = _; rw [e0]; omega
  · show win3_2.index t 1 * 16 + 1 * (j 1).val = _; rw [e1]; omega

/-- What point `t` writes back is block `t` of the layer's function of the arrays the region finds. -/
theorem flushed3 (c : Dev nD) (t : Fin cfg3.N) :
    (dat3 V c).flushed 2 t = ((cfg3.win 2).blk t).view.read (Elt Ideal) (scaleAt (V c main_v52) (V c main_v28)) := by
  show (cfg3.win 2).cut (grid3.coords t) ((dat3 V c).after 2 t) = _
  rw [after3_2]
  unfold out3_2
  rw [View.canon_unit_zero hz3]
  simp only [View.ld_unit_zero (S := S8000x16) hz3, View.ld_unit_zero (S := S8000x1) hz3]
  funext j
  obtain ⟨o0, o1⟩ := oemb3 t j
  show k3_pay1 (F := Ideal) (iblk3 V c 1 t) (iblk3 V c 0 t) j = scaleAt (V c main_v52) (V c main_v28) (((cfg3.win 2).blk t).view.emb j)
  refine (pay3_apply _ _ j).trans ?_
  unfold scaleAt
  refine congrArg₂ (· * ·) ?_ ?_
  · exact iblk3_0_apply V c t _ _ o0 o1
  · exact iblk3_1_apply V c t _ _ (by show (_ : Nat) = _; exact o0) rfl

/-- The blocks tile the output's rows. -/
theorem cover3 (i : S6400000x16.Idx) : ∃ t : Fin cfg3.N, (cfg3.win 2).flush t = true ∧ i ∈ ((cfg3.win 2).blk t).view.set := by
  have hi0 : (i 0).val < 6400000 := (i 0).isLt
  have hi1 : (i 1).val < 16 := (i 1).isLt
  have hN : cfg3.N = 800 := N_3
  have hq : (i 0).val / 8000 < cfg3.N := by rw [hN]; omega
  obtain ⟨t, ht⟩ : ∃ t : Fin cfg3.N, t.val = (i 0).val / 8000 := ⟨⟨_, hq⟩, rfl⟩
  obtain ⟨-, -, -, -, e0, e1⟩ := idx3 t
  refine ⟨t, flush3_2 t, ?_⟩
  show i ∈ ((View.whole main_v53).slice (win3_2.rect t)).set
  rw [View.set_slice_whole, Rect.mem_set_unit]
  intro a
  match a with
  | ⟨0, _⟩ =>
    show win3_2.index t 0 * 8000 ≤ (i 0).val ∧ (i 0).val < win3_2.index t 0 * 8000 + 8000
    rw [e0, ht]; omega
  | ⟨1, _⟩ =>
    show win3_2.index t 1 * 16 ≤ (i 1).val ∧ (i 1).val < win3_2.index t 1 * 16 + 16
    rw [e1]; omega

/-- The output array after the region. -/
theorem arr3 (c : Dev nD) : (dat3 V c).arrAt 2 cfg3.N = scaleAt (V c main_v52) (V c main_v28) :=
  (dat3 V c).arrAt_eq_of_cover 2 (scaleAt (V c main_v52) (V c main_v28)) (fun t _ => flushed3 V c t) cover3

end Cert.KernelIdeal.Hand

end
-- ==== Proof.Reg4.lean ====
/-
  Region 4: the second layer's activation and the head. Block `t` holds rows `2000 t ≤ r < 2000 (t + 1)` of the
  aggregated neighbours, of the node features and of the per-node factor (a column); the bias row, the head's weight
  (a row `[1, 16]`) and its bias `[1, 1]` are whole at every point. The body forms `max (agg + h · d + b) 0`,
  multiplies by the weight row broadcast over the rows, sums the sixteen lanes of each row and adds the bias: at row
  `r`, the sum over `k` of the activation at `(r, k)` times the weight at `(0, k)`, plus the bias. The hundred blocks
  tile the rows.
-/
import proofs.«115449_j36979668418675_2_alg».proof.Proof.Gen.KernelIdeal.Frame
import proofs.«115449_j36979668418675_2_alg».proof.Proof.LibPlainDot
import proofs.«115449_j36979668418675_2_alg».proof.Proof.LibCols
import proofs.«115449_j36979668418675_2_alg».proof.Proof.LayerSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen LayerSpec

theorem hz4 : (![0, 0] : Fin 2 → Nat) = fun _ => 0 := funext fun a => by fin_cases a <;> rfl

/-- The body at the entry `(p, 0)` of the block: the lane sum of the clamped activation times the weight row, plus the
    bias. -/
theorem pay4_at (v0 : Vec Ideal S2000x1 .f32) (v4 : Vec Ideal S1x16 .f32) (v8 v10 : Vec Ideal S2000x16 .f32)
    (v17 : Vec Ideal S1x16 .f32) (v24 : Vec Ideal S1x1 .f32) (p : Fin 2000) (q : Fin 1) :
    k4_pay1 (F := Ideal) v0 v4 v8 v10 v17 v24 (ix2 p q)
      = (∑ k : Fin 16, actAt v8 v10 v0 v4 (ix2 p k) * v17 (ix2 0 k)) + v24 (ix2 0 0) := by
  unfold k4_pay1
  rw [addf_apply]
  have hq : q = (0 : Fin 1) := Subsingleton.elim _ _
  refine congrArg₂ (· + ·) ?_ ?_
  · refine (ColLayout.shapeCast_vec_col (M := 2000) _ _ (ix2 p q)).trans ?_
    refine (Ideal.multiReduction_add_single _ _ _ _ _ (ix1 p)).trans ?_
    refine Finset.sum_congr rfl fun (k : Fin 16) _ => ?_
    have hl : reduces_S2000x16_S2000.lift (ix1 p) k = ix2 p k := funext fun a => Fin.ext (by
      match a with
      | ⟨0, _⟩ => rfl
      | ⟨1, _⟩ => rfl)
    rw [hl, mulf_apply, maximumf_apply, addf_apply, addf_apply, mulf_apply, ColLayout.broadcastTo_col, PlainDot.broadcastTo_row,
      PlainDot.broadcastTo_row]
    simp only [shapeCast_self]
    rfl
  · rw [PlainDot.broadcastTo_row, hq]
    simp only [shapeCast_self]

/-- The same at any entry of the block. -/
theorem pay4_apply (v0 : Vec Ideal S2000x1 .f32) (v4 : Vec Ideal S1x16 .f32) (v8 v10 : Vec Ideal S2000x16 .f32)
    (v17 : Vec Ideal S1x16 .f32) (v24 : Vec Ideal S1x1 .f32) (j : S2000x1.Idx) :
    k4_pay1 (F := Ideal) v0 v4 v8 v10 v17 v24 j = headAt v8 v10 v0 v4 v17 v24 j := by
  obtain ⟨p, q, rfl⟩ : ∃ (p : Fin 2000) (q : Fin 1), j = ix2 p q := ⟨j 0, j 1, eq_ix2 j⟩
  exact pay4_at v0 v4 v8 v10 v17 v24 p q

variable (V : (c : Dev nD) → (b : Ref sig .tc) → Buf (Elt Ideal) ((c : Thread nD τ).loc b))

/-- The index maps over the grid: a window over rows moves one block per point, a window over a whole small array stays. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Block `t` of window 0 is rows `2000 t …` of its array. -/
theorem iblk4_0_apply (c : Dev nD) (t : Fin cfg4.N) (y : S2000x16.Idx) (i : S200000x16.Idx)
    (h0 : (i 0).val = 2000 * t.val + (y 0).val) (h1 : (i 1).val = (y 1).val) :
    (iblk4 V c 0 t : FVec Ideal S2000x16 .f32) y = (V c main_v56 : S200000x16.Idx → EReal) i := by
  obtain ⟨e0, e1, -⟩ := idx4 t
  unfold iblk4
  rw [View.read_apply]
  show V c main_v56 _ = V c main_v56 _
  congr 1
  funext a
  apply Fin.ext
  match a with
  | ⟨0, _⟩ => show win4_0.index t 0 * 2000 + 1 * (y 0).val = (i 0).val; rw [e0, h0]; omega
  | ⟨1, _⟩ => show win4_0.index t 1 * 16 + 1 * (y 1).val = (i 1).val; rw [e1, h1]; omega

/-- Block `t` of window 1 is rows `2000 t …` of its array. -/
theorem iblk4_1_apply (c : Dev nD) (t : Fin cfg4.N) (y : S2000x16.Idx) (i : S200000x16.Idx)
    (h0 : (i 0).val = 2000 * t.val + (y 0).val) (h1 : (i 1).val = (y 1).val) :
    (iblk4 V c 1 t : FVec Ideal S2000x16 .f32) y = (V c main_v45 : S200000x16.Idx → EReal) i := by
  obtain ⟨-, -, e0, e1, -⟩ := idx4 t
  unfold iblk4
  rw [View.read_apply]
  show V c main_v45 _ = V c main_v45 _
  congr 1
  funext a
  apply Fin.ext
  match a with
  | ⟨0, _⟩ => show win4_1.index t 0 * 2000 + 1 * (y 0).val = (i 0).val; rw [e0, h0]; omega
  | ⟨1, _⟩ => show win4_1.index t 1 * 16 + 1 * (y 1).val = (i 1).val; rw [e1, h1]; omega

/-- Block `t` of window 2 is rows `2000 t …` of its array. -/
theorem iblk4_2_apply (c : Dev nD) (t : Fin cfg4.N) (y : S2000x1.Idx) (i : S200000x1.Idx)
    (h0 : (i 0).val = 2000 * t.val + (y 0).val) (h1 : (i 1).val = (y 1).val) :
    (iblk4 V c 2 t : FVec Ideal S2000x1 .f32) y = (V c main_v12 : S200000x1.Idx → EReal) i := by
  obtain ⟨-, -, -, -, e0, e1, -⟩ := idx4 t
  unfold iblk4
  rw [View.read_apply]
  show V c main_v12 _ = V c main_v12 _
  congr 1
  funext a
  apply Fin.ext
  match a with
  | ⟨0, _⟩ => show win4_2.index t 0 * 2000 + 1 * (y 0).val = (i 0).val; rw [e0, h0]; omega
  | ⟨1, _⟩ => show win4_2.index t 1 * 1 + 1 * (y 1).val = (i 1).val; rw [e1, h1]; omega

/-- Every block of window 3 is its whole array. -/
theorem iblk4_3_apply (c : Dev nD) (t : Fin cfg4.N) (y : S1x16.Idx) :
    (iblk4 V c 3 t : FVec Ideal S1x16 .f32) y = (V c main_v30 : S1x16.Idx → EReal) y := by
  obtain ⟨-, -, -, -, -, -, e0, e1, -⟩ := idx4 t
  unfold iblk4
  rw [View.read_apply]
  show V c main_v30 _ = V c main_v30 _
  congr 1
  funext a
  apply Fin.ext
  match a with
  | ⟨0, _⟩ => show win4_3.index t 0 * 1 + 1 * (y 0).val = (y 0).val; rw [e0]; omega
  | ⟨1, _⟩ => show win4_3.index t 1 * 16 + 1 * (y 1).val = (y 1).val; rw [e1]; omega

/-- Every block of window 4 is its whole array. -/
theorem iblk4_4_apply (c : Dev nD) (t : Fin cfg4.N) (y : S1x16.Idx) :
    (iblk4 V c 4 t : FVec Ideal S1x16 .f32) y = (V c main_v31 : S1x16.Idx → EReal) y := by
  obtain ⟨-, -, -, -, -, -, -, -, e0, e1, -⟩ := idx4 t
  unfold iblk4
  rw [View.read_apply]
  show V c main_v31 _ = V c main_v31 _
  congr 1
  funext a
  apply Fin.ext
  match a with
  | ⟨0, _⟩ => show win4_4.index t 0 * 1 + 1 * (y 0).val = (y 0).val; rw [e0]; omega
  | ⟨1, _⟩ => show win4_4.index t 1 * 16 + 1 * (y 1).val = (y 1).val; rw [e1]; omega

/-- Every block of window 5 is its whole array. -/
theorem iblk4_5_apply (c : Dev nD) (t : Fin cfg4.N) (y : S1x1.Idx) :
    (iblk4 V c 5 t : FVec Ideal S1x1 .f32) y = (V c main_v32 : S1x1.Idx → EReal) y := by
  obtain ⟨-, -, -, -, -, -, -, -, -, -, e0, e1, -⟩ := idx4 t
  unfold iblk4
  rw [View.read_apply]
  show V c main_v32 _ = V c main_v32 _
  congr 1
  funext a
  apply Fin.ext
  match a with
  | ⟨0, _⟩ => show win4_5.index t 0 * 1 + 1 * (y 0).val = (y 0).val; rw [e0]; omega
  | ⟨1, _⟩ => show win4_5.index t 1 * 1 + 1 * (y 1).val = (y 1).val; rw [e1]; omega

/-- An entry of the output's block `t` sits in row `2000 t + ` its row, same lane. -/
theorem oemb4 (t : Fin cfg4.N) (j : S2000x1.Idx) :
    ((((cfg4.win 6).blk t).view.emb j) 0).val = 2000 * t.val + (j 0).val
      ∧ ((((cfg4.win 6).blk t).view.emb j) 1).val = (j 1).val := by
  obtain ⟨-, -, -, -, -, -, -, -, -, -, -, -, e0, e1⟩ := idx4 t
  constructor
  · show win4_6.index t 0 * 2000 + 1 * (j 0).val = _; rw [e0]; omega
  · show win4_6.index t 1 * 1 + 1 * (j 1).val = _; rw [e1]; omega

/-- What point `t` writes back is block `t` of the layer's function of the arrays the region finds. -/
theorem flushed4 (c : Dev nD) (t : Fin cfg4.N) :
    (dat4 V c).flushed 6 t = ((cfg4.win 6).blk t).view.read (Elt Ideal) (headAt (V c main_v56) (V c main_v45) (V c main_v12) (V c main_v30) (V c main_v31) (V c main_v32)) := by
  show (cfg4.win 6).cut (grid4.coords t) ((dat4 V c).after 6 t) = _
  rw [after4_6]
  unfold out4_6
  rw [View.canon_unit_zero hz4]
  simp only [View.ld_unit_zero (S := S2000x16) hz4, View.ld_unit_zero (S := S2000x1) hz4, View.ld_unit_zero (S := S1x16) hz4, View.ld_unit_zero (S := S1x1) hz4]
  funext j
  obtain ⟨o0, o1⟩ := oemb4 t j
  show k4_pay1 (F := Ideal) (iblk4 V c 2 t) (iblk4 V c 3 t) (iblk4 V c 0 t) (iblk4 V c 1 t) (iblk4 V c 4 t) (iblk4 V c 5 t) j
      = headAt (V c main_v56) (V c main_v45) (V c main_v12) (V c main_v30) (V c main_v31) (V c main_v32) (((cfg4.win 6).blk t).view.emb j)
  refine (pay4_apply _ _ _ _ _ _ j).trans ?_
  unfold headAt
  refine congrArg₂ (· + ·) (Finset.sum_congr rfl fun k _ => congrArg₂ (· * ·) ?_ ?_) ?_
  ·
    unfold actAt
    refine congrArg₂ max (congrArg₂ (· + ·) (congrArg₂ (· + ·) ?_ (congrArg₂ (· * ·) ?_ ?_)) ?_) rfl
    · exact iblk4_0_apply V c t _ _ (by show (_ : Nat) = _; exact o0) rfl
    · exact iblk4_1_apply V c t _ _ (by show (_ : Nat) = _; exact o0) rfl
    · exact iblk4_2_apply V c t _ _ (by show (_ : Nat) = _; exact o0) rfl
    · exact iblk4_3_apply V c t _
  · exact iblk4_4_apply V c t _
  · exact iblk4_5_apply V c t _

/-- The blocks tile the output's rows. -/
theorem cover4 (i : S200000x1.Idx) : ∃ t : Fin cfg4.N, (cfg4.win 6).flush t = true ∧ i ∈ ((cfg4.win 6).blk t).view.set := by
  have hi0 : (i 0).val < 200000 := (i 0).isLt
  have hi1 : (i 1).val < 1 := (i 1).isLt
  have hN : cfg4.N = 100 := N_4
  have hq : (i 0).val / 2000 < cfg4.N := by rw [hN]; omega
  obtain ⟨t, ht⟩ : ∃ t : Fin cfg4.N, t.val = (i 0).val / 2000 := ⟨⟨_, hq⟩, rfl⟩
  obtain ⟨-, -, -, -, -, -, -, -, -, -, -, -, e0, e1⟩ := idx4 t
  refine ⟨t, flush4_6 t, ?_⟩
  show i ∈ ((View.whole main_v57).slice (win4_6.rect t)).set
  rw [View.set_slice_whole, Rect.mem_set_unit]
  intro a
  match a with
  | ⟨0, _⟩ =>
    show win4_6.index t 0 * 2000 ≤ (i 0).val ∧ (i 0).val < win4_6.index t 0 * 2000 + 2000
    rw [e0, ht]; omega
  | ⟨1, _⟩ =>
    show win4_6.index t 1 * 1 ≤ (i 1).val ∧ (i 1).val < win4_6.index t 1 * 1 + 1
    rw [e1]; omega

/-- The output array after the region. -/
theorem arr4 (c : Dev nD) : (dat4 V c).arrAt 6 cfg4.N = headAt (V c main_v56) (V c main_v45) (V c main_v12) (V c main_v30) (V c main_v31) (V c main_v32) :=
  (dat4 V c).arrAt_eq_of_cover 6 (headAt (V c main_v56) (V c main_v45) (V c main_v12) (V c main_v30) (V c main_v31) (V c main_v32)) (fun t _ => flushed4 V c t) cover4

end Cert.KernelIdeal.Hand

end
-- ==== Proof.RefStages.lean ====
/-
  The reference's stages as the layers' functions. Each stage of the reference's @main is a function of the argument
  arrays; the stages that a region of the kernel replaces are, index by index, the layer functions of the stages
  before them:
  * the first linear map, a contraction over an axis of extent one, is the outer product of the input column and the
    weight row;
  * a gathered feature array times the per-edge factor broadcast over the lanes is `scaleAt`;
  * `maximum (aggregated + features · broadcast factor + broadcast bias) 0` contracted with the next weight is
    `dotActAt`, and contracted with the head's weight column plus the head's bias is `headAt`.
  The second layer recomputes the per-node and per-edge factors by the same operations on the same argument, so
  its factors are the first layer's.
-/
import proofs.«115449_j36979668418675_2_alg».proof.Proof.Gen.ReferenceIdeal.Read
import proofs.«115449_j36979668418675_2_alg».proof.Proof.LayerSpec

set_option maxRecDepth 16384

noncomputable section

open Idealize.ShloMosaic Idealize.ShloMosaic.ValueIdx

namespace Cert.ReferenceIdeal.Hand

open Cert.ReferenceIdeal Cert.ReferenceIdeal.Gen Cert.ReferenceIdeal.Read LayerSpec

variable (x0 : (⟨S200000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal))
  (x4 : (⟨S16x16, .f32⟩ : BufTy).Contents (Elt Ideal)) (x5 : (⟨S16, .f32⟩ : BufTy).Contents (Elt Ideal)) (x6 : (⟨S16x1, .f32⟩ : BufTy).Contents (Elt Ideal)) (x7 : (⟨S1, .f32⟩ : BufTy).Contents (Elt Ideal))

/-- The first linear map is the outer product. -/
theorem ref_v4 : val_main_v4 (F := Ideal) x0 x2 = outerAt x0 x2 := by
  unfold val_main_v4
  exact host_outer (M := 200000) (N := 16) x0 x2

/-- The first layer's scaled messages. -/
theorem ref_v36 : val_main_v36 (F := Ideal) x0 x1 x2 = scaleAt (val_main_v34 (F := Ideal) x0 x1 x2) (val_main_v27 (F := Ideal) x1) := by
  unfold val_main_v36 val_main_v35
  exact host_scale (M := 6400000) (N := 16) _ _ _

/-- The first layer's activation. -/
theorem ref_v48 : val_main_v48 (F := Ideal) x0 x1 x2 x3
    = actAt (val_main_v39 (F := Ideal) x0 x1 x2) (val_main_v4 (F := Ideal) x0 x2) (val_main_v41 (F := Ideal) x1) (val_main_v45 (F := Ideal) x3) := by
  unfold val_main_v48 val_main_v47 val_main_v44 val_main_v43 val_main_v42 val_main_v46 val_main_call0_v0 val_main_call0_cst
  exact host_act (M := 200000) (K := 16) _ _ _ _ _ _ _

/-- The second linear map of the first layer's activation. -/
theorem ref_v49 : val_main_v49 (F := Ideal) x0 x1 x2 x3 x4
    = dotActAt (val_main_v39 (F := Ideal) x0 x1 x2) (val_main_v4 (F := Ideal) x0 x2) (val_main_v41 (F := Ideal) x1) (val_main_v45 (F := Ideal) x3) x4 := by
  unfold val_main_v49
  rw [ref_v48]
  exact host_dotAct (M := 200000) (K := 16) (N := 16) _ _ _ _ _

/-- The second layer's per-edge factor is the first layer's. -/
theorem ref_v72 : val_main_v72 (F := Ideal) x1 = val_main_v27 (F := Ideal) x1 := rfl

/-- The second layer's per-node factor is the first layer's. -/
theorem ref_v86 : val_main_v86 (F := Ideal) x1 = val_main_v41 (F := Ideal) x1 := rfl

/-- The second layer's gather indices are the first layer's. -/
theorem ref_v78 : val_main_v78 (F := Ideal) x1 = val_main_v33 (F := Ideal) x1 := rfl

/-- The second layer's scaled messages. -/
theorem ref_v81 : val_main_v81 (F := Ideal) x0 x1 x2 x3 x4
    = scaleAt (val_main_v79 (F := Ideal) x0 x1 x2 x3 x4) (val_main_v27 (F := Ideal) x1) := by
  rw [← ref_v72]
  unfold val_main_v81 val_main_v80
  exact host_scale (M := 6400000) (N := 16) _ _ _

/-- The second layer's activation. -/
theorem ref_v93 : val_main_v93 (F := Ideal) x0 x1 x2 x3 x4 x5
    = actAt (val_main_v84 (F := Ideal) x0 x1 x2 x3 x4) (val_main_v49 (F := Ideal) x0 x1 x2 x3 x4) (val_main_v41 (F := Ideal) x1) (val_main_v90 (F := Ideal) x5) := by
  rw [← ref_v86]
  unfold val_main_v93 val_main_v92 val_main_v89 val_main_v88 val_main_v87 val_main_v91 val_main_call1_v0 val_main_call1_cst
  exact host_act (M := 200000) (K := 16) _ _ _ _ _ _ _

/-- The head. The weight column is read as the row a reshape makes of it. -/
theorem ref_v97 (hc : S16x1.ShapeCasts S1x16) : val_main_v97 (F := Ideal) x0 x1 x2 x3 x4 x5 x6 x7
    = headAt (val_main_v84 (F := Ideal) x0 x1 x2 x3 x4) (val_main_v49 (F := Ideal) x0 x1 x2 x3 x4) (val_main_v41 (F := Ideal) x1)
        (val_main_v90 (F := Ideal) x5) (shapeCast S1x16 x6 hc) (val_main_v95 (F := Ideal) x7) := by
  unfold val_main_v97 val_main_v96 val_main_v94
  rw [ref_v93]
  exact host_head (M := 200000) (K := 16) _ _ _ _ _ _ hc _

end Cert.ReferenceIdeal.Hand

end
-- ==== Proof.Chain.lean ====
/-
  The idealized kernel's buffers, boundary by boundary, as the reference's stages of the argument arrays.

  @main alternates stretches of host operations with the five regions. At each boundary the buffers a later segment
  reads are followed: a buffer no segment writes keeps its contents across the segment; a host operation's result is
  the operation applied to its operands' contents; a region's output array is the layer function of the arrays the
  region finds. Read in order this gives, for the argument arrays:
  source and target indices, the per-node factor `1/deg` as a column, the per-edge factor as a column and the bias and
  head rows (first stretch); `h₁ = x ⊗ W₁` (region 0); its gather along the source indices; the messages scaled by the
  per-edge factor (region 1); their scatter-add along the target indices; `h₂ = act₁ · W₂` (region 2); gather, scaling
  (region 3) and scatter-add again; and the head of the second activation (region 4) — each equal to the
  reference's stage of the same name in the reference's own program, the host operations being the same on both
  sides and the regions' functions the layer functions of the reference's stages.
-/
import proofs.«115449_j36979668418675_2_alg».proof.Proof.Gen.KernelIdeal.Frame
import proofs.«115449_j36979668418675_2_alg».proof.Proof.Reg0
import proofs.«115449_j36979668418675_2_alg».proof.Proof.Reg1
import proofs.«115449_j36979668418675_2_alg».proof.Proof.Reg2
import proofs.«115449_j36979668418675_2_alg».proof.Proof.Reg3
import proofs.«115449_j36979668418675_2_alg».proof.Proof.Reg4
import proofs.«115449_j36979668418675_2_alg».proof.Proof.RefStages
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Hand

open Cert.KernelIdeal Cert.KernelIdeal.Gen LayerSpec
open Cert.ReferenceIdeal.Read (val_main_v1 val_main_v3 val_main_v4 val_main_v26 val_main_v27 val_main_v34 val_main_v36 val_main_v39 val_main_v40
  val_main_v41 val_main_v45 val_main_v49 val_main_v79 val_main_v81 val_main_v84 val_main_v90 val_main_v95 val_main_v97)
open Cert.ReferenceIdeal.Hand (ref_v4 ref_v36 ref_v49 ref_v81 ref_v97)

variable (m : (ℓ : Loc nD τ sig) → Buf (Elt Ideal) ℓ) (ρ : Dev nD → PrngReg) (c : Dev nD)

/-! ## Buffers kept across a segment -/

theorem keep_main_v1_2 : W2 m ρ c (Proc.devRef .tc main_v1) = W1 m ρ c (Proc.devRef .tc main_v1) := W2_of_ne m ρ c main_v1 (by decide)
theorem keep_main_v1_3 : W3 m ρ c (Proc.devRef .tc main_v1) = W2 m ρ c (Proc.devRef .tc main_v1) := by
  show StableHlo.after hostOps1 (W2 m ρ c) _ = _
  after_results
theorem keep_main_v1_4 : W4 m ρ c (Proc.devRef .tc main_v1) = W3 m ρ c (Proc.devRef .tc main_v1) := W4_of_ne m ρ c main_v1 (by decide)
theorem keep_main_v1_5 : W5 m ρ c (Proc.devRef .tc main_v1) = W4 m ρ c (Proc.devRef .tc main_v1) := by
  show StableHlo.after hostOps2 (W4 m ρ c) _ = _
  after_results
theorem keep_main_v1_6 : W6 m ρ c (Proc.devRef .tc main_v1) = W5 m ρ c (Proc.devRef .tc main_v1) := W6_of_ne m ρ c main_v1 (by decide)

theorem keep_main_v3_2 : W2 m ρ c (Proc.devRef .tc main_v3) = W1 m ρ c (Proc.devRef .tc main_v3) := W2_of_ne m ρ c main_v3 (by decide)
theorem keep_main_v3_3 : W3 m ρ c (Proc.devRef .tc main_v3) = W2 m ρ c (Proc.devRef .tc main_v3) := by
  show StableHlo.after hostOps1 (W2 m ρ c) _ = _
  after_results
theorem keep_main_v3_4 : W4 m ρ c (Proc.devRef .tc main_v3) = W3 m ρ c (Proc.devRef .tc main_v3) := W4_of_ne m ρ c main_v3 (by decide)
theorem keep_main_v3_5 : W5 m ρ c (Proc.devRef .tc main_v3) = W4 m ρ c (Proc.devRef .tc main_v3) := by
  show StableHlo.after hostOps2 (W4 m ρ c) _ = _
  after_results
theorem keep_main_v3_6 : W6 m ρ c (Proc.devRef .tc main_v3) = W5 m ρ c (Proc.devRef .tc main_v3) := W6_of_ne m ρ c main_v3 (by decide)
theorem keep_main_v3_7 : W7 m ρ c (Proc.devRef .tc main_v3) = W6 m ρ c (Proc.devRef .tc main_v3) := by
  show StableHlo.after hostOps3 (W6 m ρ c) _ = _
  after_results
theorem keep_main_v3_8 : W8 m ρ c (Proc.devRef .tc main_v3) = W7 m ρ c (Proc.devRef .tc main_v3) := W8_of_ne m ρ c main_v3 (by decide)

theorem keep_main_v28_2 : W2 m ρ c (Proc.devRef .tc main_v28) = W1 m ρ c (Proc.devRef .tc main_v28) := W2_of_ne m ρ c main_v28 (by decide)
theorem keep_main_v28_3 : W3 m ρ c (Proc.devRef .tc main_v28) = W2 m ρ c (Proc.devRef .tc main_v28) := by
  show StableHlo.after hostOps1 (W2 m ρ c) _ = _
  after_results
theorem keep_main_v28_4 : W4 m ρ c (Proc.devRef .tc main_v28) = W3 m ρ c (Proc.devRef .tc main_v28) :=
  (W4_arr m ρ c 1).trans (((dat1 (V3 m ρ) c).arrAt_in 1 rfl _).trans (A_eq1 (V3 m ρ) c 1))
theorem keep_main_v28_5 : W5 m ρ c (Proc.devRef .tc main_v28) = W4 m ρ c (Proc.devRef .tc main_v28) := by
  show StableHlo.after hostOps2 (W4 m ρ c) _ = _
  after_results
theorem keep_main_v28_6 : W6 m ρ c (Proc.devRef .tc main_v28) = W5 m ρ c (Proc.devRef .tc main_v28) := W6_of_ne m ρ c main_v28 (by decide)
theorem keep_main_v28_7 : W7 m ρ c (Proc.devRef .tc main_v28) = W6 m ρ c (Proc.devRef .tc main_v28) := by
  show StableHlo.after hostOps3 (W6 m ρ c) _ = _
  after_results

theorem keep_main_v12_2 : W2 m ρ c (Proc.devRef .tc main_v12) = W1 m ρ c (Proc.devRef .tc main_v12) := W2_of_ne m ρ c main_v12 (by decide)
theorem keep_main_v12_3 : W3 m ρ c (Proc.devRef .tc main_v12) = W2 m ρ c (Proc.devRef .tc main_v12) := by
  show StableHlo.after hostOps1 (W2 m ρ c) _ = _
  after_results
theorem keep_main_v12_4 : W4 m ρ c (Proc.devRef .tc main_v12) = W3 m ρ c (Proc.devRef .tc main_v12) := W4_of_ne m ρ c main_v12 (by decide)
theorem keep_main_v12_5 : W5 m ρ c (Proc.devRef .tc main_v12) = W4 m ρ c (Proc.devRef .tc main_v12) := by
  show StableHlo.after hostOps2 (W4 m ρ c) _ = _
  after_results
theorem keep_main_v12_6 : W6 m ρ c (Proc.devRef .tc main_v12) = W5 m ρ c (Proc.devRef .tc main_v12) :=
  (W6_arr m ρ c 2).trans (((dat2 (V5 m ρ) c).arrAt_in 2 rfl _).trans (A_eq2 (V5 m ρ) c 2))
theorem keep_main_v12_7 : W7 m ρ c (Proc.devRef .tc main_v12) = W6 m ρ c (Proc.devRef .tc main_v12) := by
  show StableHlo.after hostOps3 (W6 m ρ c) _ = _
  after_results
theorem keep_main_v12_8 : W8 m ρ c (Proc.devRef .tc main_v12) = W7 m ρ c (Proc.devRef .tc main_v12) := W8_of_ne m ρ c main_v12 (by decide)
theorem keep_main_v12_9 : W9 m ρ c (Proc.devRef .tc main_v12) = W8 m ρ c (Proc.devRef .tc main_v12) := by
  show StableHlo.after hostOps4 (W8 m ρ c) _ = _
  after_results

theorem keep_main_v29_2 : W2 m ρ c (Proc.devRef .tc main_v29) = W1 m ρ c (Proc.devRef .tc main_v29) := W2_of_ne m ρ c main_v29 (by decide)
theorem keep_main_v29_3 : W3 m ρ c (Proc.devRef .tc main_v29) = W2 m ρ c (Proc.devRef .tc main_v29) := by
  show StableHlo.after hostOps1 (W2 m ρ c) _ = _
  after_results
theorem keep_main_v29_4 : W4 m ρ c (Proc.devRef .tc main_v29) = W3 m ρ c (Proc.devRef .tc main_v29) := W4_of_ne m ρ c main_v29 (by decide)
theorem keep_main_v29_5 : W5 m ρ c (Proc.devRef .tc main_v29) = W4 m ρ c (Proc.devRef .tc main_v29) := by
  show StableHlo.after hostOps2 (W4 m ρ c) _ = _
  after_results

theorem keep_main_arg4_1 : W1 m ρ c (Proc.devRef .tc main_arg4) = W0 m ρ c (Proc.devRef .tc main_arg4) := by
  show StableHlo.after hostOps0 (W0 m ρ c) _ = _
  after_results
theorem keep_main_arg4_2 : W2 m ρ c (Proc.devRef .tc main_arg4) = W1 m ρ c (Proc.devRef .tc main_arg4) := W2_of_ne m ρ c main_arg4 (by decide)
theorem keep_main_arg4_3 : W3 m ρ c (Proc.devRef .tc main_arg4) = W2 m ρ c (Proc.devRef .tc main_arg4) := by
  show StableHlo.after hostOps1 (W2 m ρ c) _ = _
  after_results
theorem keep_main_arg4_4 : W4 m ρ c (Proc.devRef .tc main_arg4) = W3 m ρ c (Proc.devRef .tc main_arg4) := W4_of_ne m ρ c main_arg4 (by decide)
theorem keep_main_arg4_5 : W5 m ρ c (Proc.devRef .tc main_arg4) = W4 m ρ c (Proc.devRef .tc main_arg4) := by
  show StableHlo.after hostOps2 (W4 m ρ c) _ = _
  after_results

theorem keep_main_v30_2 : W2 m ρ c (Proc.devRef .tc main_v30) = W1 m ρ c (Proc.devRef .tc main_v30) := W2_of_ne m ρ c main_v30 (by decide)
theorem keep_main_v30_3 : W3 m ρ c (Proc.devRef .tc main_v30) = W2 m ρ c (Proc.devRef .tc main_v30) := by
  show StableHlo.after hostOps1 (W2 m ρ c) _ = _
  after_results
theorem keep_main_v30_4 : W4 m ρ c (Proc.devRef .tc main_v30) = W3 m ρ c (Proc.devRef .tc main_v30) := W4_of_ne m ρ c main_v30 (by decide)
theorem keep_main_v30_5 : W5 m ρ c (Proc.devRef .tc main_v30) = W4 m ρ c (Proc.devRef .tc main_v30) := by
  show StableHlo.after hostOps2 (W4 m ρ c) _ = _
  after_results
theorem keep_main_v30_6 : W6 m ρ c (Proc.devRef .tc main_v30) = W5 m ρ c (Proc.devRef .tc main_v30) := W6_of_ne m ρ c main_v30 (by decide)
theorem keep_main_v30_7 : W7 m ρ c (Proc.devRef .tc main_v30) = W6 m ρ c (Proc.devRef .tc main_v30) := by
  show StableHlo.after hostOps3 (W6 m ρ c) _ = _
  after_results
theorem keep_main_v30_8 : W8 m ρ c (Proc.devRef .tc main_v30) = W7 m ρ c (Proc.devRef .tc main_v30) := W8_of_ne m ρ c main_v30 (by decide)
theorem keep_main_v30_9 : W9 m ρ c (Proc.devRef .tc main_v30) = W8 m ρ c (Proc.devRef .tc main_v30) := by
  show StableHlo.after hostOps4 (W8 m ρ c) _ = _
  after_results

theorem keep_main_v31_2 : W2 m ρ c (Proc.devRef .tc main_v31) = W1 m ρ c (Proc.devRef .tc main_v31) := W2_of_ne m ρ c main_v31 (by decide)
theorem keep_main_v31_3 : W3 m ρ c (Proc.devRef .tc main_v31) = W2 m ρ c (Proc.devRef .tc main_v31) := by
  show StableHlo.after hostOps1 (W2 m ρ c) _ = _
  after_results
theorem keep_main_v31_4 : W4 m ρ c (Proc.devRef .tc main_v31) = W3 m ρ c (Proc.devRef .tc main_v31) := W4_of_ne m ρ c main_v31 (by decide)
theorem keep_main_v31_5 : W5 m ρ c (Proc.devRef .tc main_v31) = W4 m ρ c (Proc.devRef .tc main_v31) := by
  show StableHlo.after hostOps2 (W4 m ρ c) _ = _
  after_results
theorem keep_main_v31_6 : W6 m ρ c (Proc.devRef .tc main_v31) = W5 m ρ c (Proc.devRef .tc main_v31) := W6_of_ne m ρ c main_v31 (by decide)
theorem keep_main_v31_7 : W7 m ρ c (Proc.devRef .tc main_v31) = W6 m ρ c (Proc.devRef .tc main_v31) := by
  show StableHlo.after hostOps3 (W6 m ρ c) _ = _
  after_results
theorem keep_main_v31_8 : W8 m ρ c (Proc.devRef .tc main_v31) = W7 m ρ c (Proc.devRef .tc main_v31) := W8_of_ne m ρ c main_v31 (by decide)
theorem keep_main_v31_9 : W9 m ρ c (Proc.devRef .tc main_v31) = W8 m ρ c (Proc.devRef .tc main_v31) := by
  show StableHlo.after hostOps4 (W8 m ρ c) _ = _
  after_results

theorem keep_main_v32_2 : W2 m ρ c (Proc.devRef .tc main_v32) = W1 m ρ c (Proc.devRef .tc main_v32) := W2_of_ne m ρ c main_v32 (by decide)
theorem keep_main_v32_3 : W3 m ρ c (Proc.devRef .tc main_v32) = W2 m ρ c (Proc.devRef .tc main_v32) := by
  show StableHlo.after hostOps1 (W2 m ρ c) _ = _
  after_results
theorem keep_main_v32_4 : W4 m ρ c (Proc.devRef .tc main_v32) = W3 m ρ c (Proc.devRef .tc main_v32) := W4_of_ne m ρ c main_v32 (by decide)
theorem keep_main_v32_5 : W5 m ρ c (Proc.devRef .tc main_v32) = W4 m ρ c (Proc.devRef .tc main_v32) := by
  show StableHlo.after hostOps2 (W4 m ρ c) _ = _
  after_results
theorem keep_main_v32_6 : W6 m ρ c (Proc.devRef .tc main_v32) = W5 m ρ c (Proc.devRef .tc main_v32) := W6_of_ne m ρ c main_v32 (by decide)
theorem keep_main_v32_7 : W7 m ρ c (Proc.devRef .tc main_v32) = W6 m ρ c (Proc.devRef .tc main_v32) := by
  show StableHlo.after hostOps3 (W6 m ρ c) _ = _
  after_results
theorem keep_main_v32_8 : W8 m ρ c (Proc.devRef .tc main_v32) = W7 m ρ c (Proc.devRef .tc main_v32) := W8_of_ne m ρ c main_v32 (by decide)
theorem keep_main_v32_9 : W9 m ρ c (Proc.devRef .tc main_v32) = W8 m ρ c (Proc.devRef .tc main_v32) := by
  show StableHlo.after hostOps4 (W8 m ρ c) _ = _
  after_results

theorem keep_main_v33_3 : W3 m ρ c (Proc.devRef .tc main_v33) = W2 m ρ c (Proc.devRef .tc main_v33) := by
  show StableHlo.after hostOps1 (W2 m ρ c) _ = _
  after_results
theorem keep_main_v33_4 : W4 m ρ c (Proc.devRef .tc main_v33) = W3 m ρ c (Proc.devRef .tc main_v33) := W4_of_ne m ρ c main_v33 (by decide)
theorem keep_main_v33_5 : W5 m ρ c (Proc.devRef .tc main_v33) = W4 m ρ c (Proc.devRef .tc main_v33) := by
  show StableHlo.after hostOps2 (W4 m ρ c) _ = _
  after_results

theorem keep_main_v45_7 : W7 m ρ c (Proc.devRef .tc main_v45) = W6 m ρ c (Proc.devRef .tc main_v45) := by
  show StableHlo.after hostOps3 (W6 m ρ c) _ = _
  after_results
theorem keep_main_v45_8 : W8 m ρ c (Proc.devRef .tc main_v45) = W7 m ρ c (Proc.devRef .tc main_v45) := W8_of_ne m ρ c main_v45 (by decide)
theorem keep_main_v45_9 : W9 m ρ c (Proc.devRef .tc main_v45) = W8 m ρ c (Proc.devRef .tc main_v45) := by
  show StableHlo.after hostOps4 (W8 m ρ c) _ = _
  after_results

/-! ## The first stretch: indices, factors, rows -/

theorem at_main_arg0_1 : W1 m ρ c (Proc.devRef .tc main_arg0) = (m ((c : Thread nD τ).loc main_arg0)) := by
  show StableHlo.after hostOps0 (W0 m ρ c) _ = _
  after_results_simp <;> rfl
theorem at_main_arg2_1 : W1 m ρ c (Proc.devRef .tc main_arg2) = (m ((c : Thread nD τ).loc main_arg2)) := by
  show StableHlo.after hostOps0 (W0 m ρ c) _ = _
  after_results_simp <;> rfl
theorem at_main_arg4_0 : W0 m ρ c (Proc.devRef .tc main_arg4) = (m ((c : Thread nD τ).loc main_arg4)) := rfl
/-- The source indices. -/
theorem at_main_v1_1 : W1 m ρ c (Proc.devRef .tc main_v1) = val_main_v1 (F := Ideal) (m ((c : Thread nD τ).loc main_arg1)) := by
  show StableHlo.after hostOps0 (W0 m ρ c) _ = _
  after_results_simp <;> rfl
/-- The target indices. -/
theorem at_main_v3_1 : W1 m ρ c (Proc.devRef .tc main_v3) = val_main_v3 (F := Ideal) (m ((c : Thread nD τ).loc main_arg1)) := by
  show StableHlo.after hostOps0 (W0 m ρ c) _ = _
  after_results_simp <;> rfl
/-- The per-node factor as a column: a reshape of the vector on this side, a broadcast along a new axis on the other. -/
theorem at_main_v12_1 : W1 m ρ c (Proc.devRef .tc main_v12) = val_main_v41 (F := Ideal) (m ((c : Thread nD τ).loc main_arg1)) := by
  show StableHlo.after hostOps0 (W0 m ρ c) _ = _
  after_results_simp
  exact ColLayout.shapeCast_eq_broadcastInDim_col (M := 200000) (val_main_v40 (F := Ideal) (m ((c : Thread nD τ).loc main_arg1))) _ _
/-- The per-edge factor as a column. -/
theorem at_main_v28_1 : W1 m ρ c (Proc.devRef .tc main_v28) = val_main_v27 (F := Ideal) (m ((c : Thread nD τ).loc main_arg1)) := by
  show StableHlo.after hostOps0 (W0 m ρ c) _ = _
  after_results_simp
  exact ColLayout.shapeCast_eq_broadcastInDim_col (M := 6400000) (val_main_v26 (F := Ideal) (m ((c : Thread nD τ).loc main_arg1))) _ _
/-- The first bias as a row. -/
theorem at_main_v29_1 : W1 m ρ c (Proc.devRef .tc main_v29) = val_main_v45 (F := Ideal) (m ((c : Thread nD τ).loc main_arg3)) := by
  show StableHlo.after hostOps0 (W0 m ρ c) _ = _
  after_results_simp
  exact PlainDot.shapeCast_eq_broadcastInDim_row (N := 16) (m ((c : Thread nD τ).loc main_arg3)) _ _
/-- The second bias as a row. -/
theorem at_main_v30_1 : W1 m ρ c (Proc.devRef .tc main_v30) = val_main_v90 (F := Ideal) (m ((c : Thread nD τ).loc main_arg5)) := by
  show StableHlo.after hostOps0 (W0 m ρ c) _ = _
  after_results_simp
  exact PlainDot.shapeCast_eq_broadcastInDim_row (N := 16) (m ((c : Thread nD τ).loc main_arg5)) _ _
/-- The head's weight column re-laid as a row. -/
theorem at_main_v31_1 : W1 m ρ c (Proc.devRef .tc main_v31) = shapeCast S1x16 (m ((c : Thread nD τ).loc main_arg6)) shapeCasts_S16x1_S1x16 := by
  show StableHlo.after hostOps0 (W0 m ρ c) _ = _
  after_results_simp <;> rfl
/-- The head's bias as a `[1, 1]` array. -/
theorem at_main_v32_1 : W1 m ρ c (Proc.devRef .tc main_v32) = val_main_v95 (F := Ideal) (m ((c : Thread nD τ).loc main_arg7)) := by
  show StableHlo.after hostOps0 (W0 m ρ c) _ = _
  after_results_simp
  exact PlainDot.shapeCast_eq_broadcastInDim_row (N := 1) (m ((c : Thread nD τ).loc main_arg7)) _ _

theorem at_main_v1_2 : W2 m ρ c (Proc.devRef .tc main_v1) = val_main_v1 (F := Ideal) (m ((c : Thread nD τ).loc main_arg1)) := (keep_main_v1_2 m ρ c).trans (at_main_v1_1 m ρ c)
theorem at_main_v1_6 : W6 m ρ c (Proc.devRef .tc main_v1) = val_main_v1 (F := Ideal) (m ((c : Thread nD τ).loc main_arg1)) := (keep_main_v1_6 m ρ c).trans ((keep_main_v1_5 m ρ c).trans ((keep_main_v1_4 m ρ c).trans ((keep_main_v1_3 m ρ c).trans ((keep_main_v1_2 m ρ c).trans (at_main_v1_1 m ρ c)))))
theorem at_main_v3_4 : W4 m ρ c (Proc.devRef .tc main_v3) = val_main_v3 (F := Ideal) (m ((c : Thread nD τ).loc main_arg1)) := (keep_main_v3_4 m ρ c).trans ((keep_main_v3_3 m ρ c).trans ((keep_main_v3_2 m ρ c).trans (at_main_v3_1 m ρ c)))
theorem at_main_v3_8 : W8 m ρ c (Proc.devRef .tc main_v3) = val_main_v3 (F := Ideal) (m ((c : Thread nD τ).loc main_arg1)) := (keep_main_v3_8 m ρ c).trans ((keep_main_v3_7 m ρ c).trans ((keep_main_v3_6 m ρ c).trans ((keep_main_v3_5 m ρ c).trans ((keep_main_v3_4 m ρ c).trans ((keep_main_v3_3 m ρ c).trans ((keep_main_v3_2 m ρ c).trans (at_main_v3_1 m ρ c)))))))
theorem at_main_v28_3 : W3 m ρ c (Proc.devRef .tc main_v28) = val_main_v27 (F := Ideal) (m ((c : Thread nD τ).loc main_arg1)) := (keep_main_v28_3 m ρ c).trans ((keep_main_v28_2 m ρ c).trans (at_main_v28_1 m ρ c))
theorem at_main_v28_7 : W7 m ρ c (Proc.devRef .tc main_v28) = val_main_v27 (F := Ideal) (m ((c : Thread nD τ).loc main_arg1)) := (keep_main_v28_7 m ρ c).trans ((keep_main_v28_6 m ρ c).trans ((keep_main_v28_5 m ρ c).trans ((keep_main_v28_4 m ρ c).trans ((keep_main_v28_3 m ρ c).trans ((keep_main_v28_2 m ρ c).trans (at_main_v28_1 m ρ c))))))
theorem at_main_v12_5 : W5 m ρ c (Proc.devRef .tc main_v12) = val_main_v41 (F := Ideal) (m ((c : Thread nD τ).loc main_arg1)) := (keep_main_v12_5 m ρ c).trans ((keep_main_v12_4 m ρ c).trans ((keep_main_v12_3 m ρ c).trans ((keep_main_v12_2 m ρ c).trans (at_main_v12_1 m ρ c))))
theorem at_main_v12_9 : W9 m ρ c (Proc.devRef .tc main_v12) = val_main_v41 (F := Ideal) (m ((c : Thread nD τ).loc main_arg1)) := (keep_main_v12_9 m ρ c).trans ((keep_main_v12_8 m ρ c).trans ((keep_main_v12_7 m ρ c).trans ((keep_main_v12_6 m ρ c).trans ((keep_main_v12_5 m ρ c).trans ((keep_main_v12_4 m ρ c).trans ((keep_main_v12_3 m ρ c).trans ((keep_main_v12_2 m ρ c).trans (at_main_v12_1 m ρ c))))))))
theorem at_main_v29_5 : W5 m ρ c (Proc.devRef .tc main_v29) = val_main_v45 (F := Ideal) (m ((c : Thread nD τ).loc main_arg3)) := (keep_main_v29_5 m ρ c).trans ((keep_main_v29_4 m ρ c).trans ((keep_main_v29_3 m ρ c).trans ((keep_main_v29_2 m ρ c).trans (at_main_v29_1 m ρ c))))
theorem at_main_arg4_5 : W5 m ρ c (Proc.devRef .tc main_arg4) = (m ((c : Thread nD τ).loc main_arg4)) := (keep_main_arg4_5 m ρ c).trans ((keep_main_arg4_4 m ρ c).trans ((keep_main_arg4_3 m ρ c).trans ((keep_main_arg4_2 m ρ c).trans ((keep_main_arg4_1 m ρ c).trans (at_main_arg4_0 m ρ c)))))
theorem at_main_v30_9 : W9 m ρ c (Proc.devRef .tc main_v30) = val_main_v90 (F := Ideal) (m ((c : Thread nD τ).loc main_arg5)) := (keep_main_v30_9 m ρ c).trans ((keep_main_v30_8 m ρ c).trans ((keep_main_v30_7 m ρ c).trans ((keep_main_v30_6 m ρ c).trans ((keep_main_v30_5 m ρ c).trans ((keep_main_v30_4 m ρ c).trans ((keep_main_v30_3 m ρ c).trans ((keep_main_v30_2 m ρ c).trans (at_main_v30_1 m ρ c))))))))
theorem at_main_v31_9 : W9 m ρ c (Proc.devRef .tc main_v31) = shapeCast S1x16 (m ((c : Thread nD τ).loc main_arg6)) shapeCasts_S16x1_S1x16 := (keep_main_v31_9 m ρ c).trans ((keep_main_v31_8 m ρ c).trans ((keep_main_v31_7 m ρ c).trans ((keep_main_v31_6 m ρ c).trans ((keep_main_v31_5 m ρ c).trans ((keep_main_v31_4 m ρ c).trans ((keep_main_v31_3 m ρ c).trans ((keep_main_v31_2 m ρ c).trans (at_main_v31_1 m ρ c))))))))
theorem at_main_v32_9 : W9 m ρ c (Proc.devRef .tc main_v32) = val_main_v95 (F := Ideal) (m ((c : Thread nD τ).loc main_arg7)) := (keep_main_v32_9 m ρ c).trans ((keep_main_v32_8 m ρ c).trans ((keep_main_v32_7 m ρ c).trans ((keep_main_v32_6 m ρ c).trans ((keep_main_v32_5 m ρ c).trans ((keep_main_v32_4 m ρ c).trans ((keep_main_v32_3 m ρ c).trans ((keep_main_v32_2 m ρ c).trans (at_main_v32_1 m ρ c))))))))

/-! ## Layer one -/

/-- Region 0: `h₁`. -/
theorem at_main_v33_2 : W2 m ρ c (Proc.devRef .tc main_v33) = val_main_v4 (F := Ideal) (m ((c : Thread nD τ).loc main_arg0)) (m ((c : Thread nD τ).loc main_arg2)) := by
  refine (W2_arr m ρ c 2).trans ((arr0 (V1 m ρ) c).trans ?_)
  show outerAt (W1 m ρ c (Proc.devRef .tc main_arg0)) (W1 m ρ c (Proc.devRef .tc main_arg2)) = _
  rw [at_main_arg0_1 m ρ c, at_main_arg2_1 m ρ c]
  exact (ref_v4 _ _).symm
theorem at_main_v33_5 : W5 m ρ c (Proc.devRef .tc main_v33) = val_main_v4 (F := Ideal) (m ((c : Thread nD τ).loc main_arg0)) (m ((c : Thread nD τ).loc main_arg2)) := (keep_main_v33_5 m ρ c).trans ((keep_main_v33_4 m ρ c).trans ((keep_main_v33_3 m ρ c).trans (at_main_v33_2 m ρ c)))

/-- The gather of `h₁` along the source indices. -/
theorem at_main_v40_3 : W3 m ρ c (Proc.devRef .tc main_v40) = val_main_v34 (F := Ideal) (m ((c : Thread nD τ).loc main_arg0)) (m ((c : Thread nD τ).loc main_arg1)) (m ((c : Thread nD τ).loc main_arg2)) := by
  show StableHlo.after hostOps1 (W2 m ρ c) _ = _
  after_results
  rw [at_main_v33_2 m ρ c, at_main_v1_2 m ρ c]
  rfl
/-- Region 1: the scaled messages. -/
theorem at_main_v41_4 : W4 m ρ c (Proc.devRef .tc main_v41) = val_main_v36 (F := Ideal) (m ((c : Thread nD τ).loc main_arg0)) (m ((c : Thread nD τ).loc main_arg1)) (m ((c : Thread nD τ).loc main_arg2)) := by
  refine (W4_arr m ρ c 2).trans ((arr1 (V3 m ρ) c).trans ?_)
  show scaleAt (W3 m ρ c (Proc.devRef .tc main_v40)) (W3 m ρ c (Proc.devRef .tc main_v28)) = _
  rw [at_main_v40_3 m ρ c, at_main_v28_3 m ρ c]
  exact (ref_v36 _ _ _).symm
/-- Their scatter-add along the target indices. -/
theorem at_main_v44_5 : W5 m ρ c (Proc.devRef .tc main_v44) = val_main_v39 (F := Ideal) (m ((c : Thread nD τ).loc main_arg0)) (m ((c : Thread nD τ).loc main_arg1)) (m ((c : Thread nD τ).loc main_arg2)) := by
  show StableHlo.after hostOps2 (W4 m ρ c) _ = _
  after_results
  rw [at_main_v41_4 m ρ c, at_main_v3_4 m ρ c]
  rfl
/-- Region 2: `h₂`. -/
theorem at_main_v45_6 : W6 m ρ c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 5).trans ((arr2 (V5 m ρ) c).trans ?_)
  show dotActAt (W5 m ρ c (Proc.devRef .tc main_v44)) (W5 m ρ c (Proc.devRef .tc main_v33)) (W5 m ρ c (Proc.devRef .tc main_v12)) (W5 m ρ c (Proc.devRef .tc main_v29)) (W5 m ρ c (Proc.devRef .tc main_arg4)) = _
  rw [at_main_v44_5 m ρ c, at_main_v33_5 m ρ c, at_main_v12_5 m ρ c, at_main_v29_5 m ρ c, at_main_arg4_5 m ρ c]
  exact (ref_v49 _ _ _ _ _).symm
theorem at_main_v45_9 : W9 m ρ c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (keep_main_v45_9 m ρ c).trans ((keep_main_v45_8 m ρ c).trans ((keep_main_v45_7 m ρ c).trans (at_main_v45_6 m ρ c)))

/-! ## Layer two and the head -/

/-- The gather of `h₂` along the source indices. -/
theorem at_main_v52_7 : W7 m ρ c (Proc.devRef .tc main_v52) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) _ = _
  after_results
  rw [at_main_v45_6 m ρ c, at_main_v1_6 m ρ c]
  rfl
/-- Region 3: the scaled messages. -/
theorem at_main_v53_8 : W8 m ρ c (Proc.devRef .tc main_v53) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 2).trans ((arr3 (V7 m ρ) c).trans ?_)
  show scaleAt (W7 m ρ c (Proc.devRef .tc main_v52)) (W7 m ρ c (Proc.devRef .tc main_v28)) = _
  rw [at_main_v52_7 m ρ c, at_main_v28_7 m ρ c]
  exact (ref_v81 _ _ _ _ _).symm
/-- Their scatter-add along the target indices. -/
theorem at_main_v56_9 : W9 m ρ c (Proc.devRef .tc main_v56) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W8 m ρ c) _ = _
  after_results
  rw [at_main_v53_8 m ρ c, at_main_v3_8 m ρ c]
  rfl
/-- Region 4: the result is the reference's last stage of the arguments. -/
theorem result_eq : W10 m ρ c (Proc.devRef .tc main_v57) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 6).trans ((arr4 (V9 m ρ) c).trans ?_)
  show headAt (W9 m ρ c (Proc.devRef .tc main_v56)) (W9 m ρ c (Proc.devRef .tc main_v45)) (W9 m ρ c (Proc.devRef .tc main_v12)) (W9 m ρ c (Proc.devRef .tc main_v30)) (W9 m ρ c (Proc.devRef .tc main_v31)) (W9 m ρ c (Proc.devRef .tc main_v32)) = _
  rw [at_main_v56_9 m ρ c, at_main_v45_9 m ρ c, at_main_v12_9 m ρ c, at_main_v30_9 m ρ c, at_main_v31_9 m ρ c, at_main_v32_9 m ρ c]
  exact (ref_v97 _ _ _ _ _ _ _ _ _).symm

end Cert.KernelIdeal.Hand

end
-- ==== Proof.lean ====
/-
  The certificate of a two-layer graph convolution with a linear head, computed by five row-blocked regions among host
  gathers and scatter-adds, against the plain array program: `frame_Kernel ∧ frame_KernelIdeal ∧ frame_ReferenceIdeal ∧
  preserves_Kernel_KernelIdeal ∧ algebraic_KernelIdeal_ReferenceIdeal`.

  On extended reals both programs compute, for node features `x`, source and target indices `s, t` of the edges and
  `d = 1 / sqrt (deg + 1)`: `h₁ = x ⊗ W₁`; `a₁ = scatter-add over t of (h₁[s] · d[s] d[t])`;
  `h₂ = max (a₁ + h₁ · d² + b₁) 0 · W₂`; `a₂` likewise from `h₂`; and `max (a₂ + h₂ · d² + b₂) 0 · Wl + bl`. The gathers and
  the scatter-adds are the same host operations in both programs. The kernel's regions compute, block of rows by
  block of rows, the outer product, the per-edge scaling, the activation through the matrix unit and the activation
  through a lane sum; each is, index by index, the function the reference's host operations compose to (a contraction
  over one axis as a finite sum; a change of float format the identity; a reshape and a broadcast along a new axis the
  same array). So the kernel's result array is the reference's last stage of the same arguments. No law here needs
  finiteness: sums and products are only re-spelt, never redistributed.
-/
import proofs.«115449_j36979668418675_2_alg».proof.Defs
import proofs.«115449_j36979668418675_2_alg».proof.Proof.Gen.Kernel
import proofs.«115449_j36979668418675_2_alg».proof.Proof.Gen.Kernel.Skeleton
import proofs.«115449_j36979668418675_2_alg».proof.Proof.Gen.Kernel.Launch
import proofs.«115449_j36979668418675_2_alg».proof.Proof.Gen.Kernel.Points
import proofs.«115449_j36979668418675_2_alg».proof.Proof.Gen.Kernel.Frame
import proofs.«115449_j36979668418675_2_alg».proof.Proof.Gen.KernelIdeal
import proofs.«115449_j36979668418675_2_alg».proof.Proof.Gen.KernelIdeal.Skeleton
import proofs.«115449_j36979668418675_2_alg».proof.Proof.Gen.KernelIdeal.Launch
import proofs.«115449_j36979668418675_2_alg».proof.Proof.Gen.KernelIdeal.Points
import proofs.«115449_j36979668418675_2_alg».proof.Proof.Gen.KernelIdeal.Frame
import proofs.«115449_j36979668418675_2_alg».proof.Proof.Gen.ReferenceIdeal
import proofs.«115449_j36979668418675_2_alg».proof.Proof.Gen.Pre_finite_inputs
import proofs.«115449_j36979668418675_2_alg».proof.Proof.Gen.ReferenceIdeal.Run
import proofs.«115449_j36979668418675_2_alg».proof.Proof.Gen.ReferenceIdeal.Read
import proofs.«115449_j36979668418675_2_alg».proof.Proof.KRun
import proofs.«115449_j36979668418675_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the reference's last stage of the (agreeing) argument arrays. -/
theorem algebraic : Cert.algebraic_KernelIdeal_ReferenceIdeal := by
  intro m ρ m' ρ' _ hagree
  refine ⟨fun c => Cert.ReferenceIdeal.Read.val_main_v97 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v97_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
